-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x24x1 : Shape := ⟨3, ![1048576, 24, 1]⟩
abbrev S4x4 : Shape := ⟨2, ![4, 4]⟩
abbrev S_ : Shape := ⟨0, ![]⟩

class Facts : Prop where
  bcast_S_S1048576x24x1 : S_.BroadcastsInDim S1048576x24x1 (![] : Fin 0 → Fin S1048576x24x1.rank)
  reducesTo_S1048576x24x1_S_d0_1_2 : S1048576x24x1.ReducesTo [0, 1, 2] S_
  h_S_ : 0 < S_.numel
  bcast_S_S4x4 : S_.BroadcastsInDim S4x4 (![] : Fin 0 → Fin S4x4.rank)
  reducesTo_S4x4_S_d0_1 : S4x4.ReducesTo [0, 1] S_

variable [Facts]

def fn {F : FTy → Type} [FloatOps F] (main_arg0 : FVec F S1048576x24x1 .f32) (main_arg1 : FVec F S1048576x24x1 .f32) (main_arg2 : FVec F S4x4 .f32) : IVec S_ 1 :=
  let main_v0 : FVec F S1048576x24x1 .f32 := Host.absf main_arg0
  let main_cst : FVec F S_ .f32 := constant S_ .f32 0x7F800000#32
  let main_v1 : FVec F S1048576x24x1 .f32 := broadcastInDim S1048576x24x1 ![] bcast_S_S1048576x24x1 main_cst
  let main_v2 : IVec S1048576x24x1 1 := cmpf .olt main_v0 main_v1
  let main_c : IVec S_ 1 := constantI S_ 1 1#1
  let main_v3 : IVec S_ 1 := (fun x v => Host.reduce IntOp.andi x v reducesTo_S1048576x24x1_S_d0_1_2 h_S_) main_v2 main_c
  let main_v4 : FVec F S1048576x24x1 .f32 := Host.absf main_arg1
  let main_cst_0 : FVec F S_ .f32 := constant S_ .f32 0x7F800000#32
  let main_v5 : FVec F S1048576x24x1 .f32 := broadcastInDim S1048576x24x1 ![] bcast_S_S1048576x24x1 main_cst_0
  let main_v6 : IVec S1048576x24x1 1 := cmpf .olt main_v4 main_v5
  let main_c_1 : IVec S_ 1 := constantI S_ 1 1#1
  let main_v7 : IVec S_ 1 := (fun x v => Host.reduce IntOp.andi x v reducesTo_S1048576x24x1_S_d0_1_2 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  main_v13
-- ==== Kernel.lean ====
abbrev S1048576x24x1 : Shape := ⟨3, ![1048576, 24, 1]⟩
abbrev S4x4 : Shape := ⟨2, ![4, 4]⟩
abbrev S1048576x24 : Shape := ⟨2, ![1048576, 24]⟩
abbrev S_ : Shape := ⟨0, ![]⟩
abbrev S1x1 : Shape := ⟨2, ![1, 1]⟩
abbrev S65536x24 : Shape := ⟨2, ![65536, 24]⟩
abbrev S1x65536x24 : Shape := ⟨3, ![1, 65536, 24]⟩
abbrev S1 : Shape := ⟨1, ![1]⟩
abbrev S1x1x1 : Shape := ⟨3, ![1, 1, 1]⟩
abbrev S65536 : Shape := ⟨1, ![65536]⟩
abbrev S1x65536 : Shape := ⟨2, ![1, 65536]⟩

abbrev nBuf : Space → Nat
  | .hbm => 13
  | .vmem => 8
  | .smem => 0
  | _ => 0

abbrev bufTy : (tb : Table) → Fin (tcTables nBuf tb) → BufTy
  | .hbm, ⟨0, _⟩ => ⟨S1048576x24x1, .f32⟩
  | .hbm, ⟨1, _⟩ => ⟨S1048576x24x1, .f32⟩
  | .hbm, ⟨2, _⟩ => ⟨S4x4, .f32⟩
  | .hbm, ⟨3, _⟩ => ⟨S1048576x24, .f32⟩
  | .hbm, ⟨4, _⟩ => ⟨S1048576x24, .f32⟩
  | .hbm, ⟨5, _⟩ => ⟨S4x4, .f32⟩
  | .hbm, ⟨6, _⟩ => ⟨S4x4, .f32⟩
  | .hbm, ⟨7, _⟩ => ⟨S_, .f32⟩
  | .hbm, ⟨8, _⟩ => ⟨S_, .f32⟩
  | .hbm, ⟨9, _⟩ => ⟨S4x4, .f32⟩
  | .hbm, ⟨10, _⟩ => ⟨S4x4, .f32⟩
  | .hbm, ⟨11, _⟩ => ⟨S1x1, .f32⟩
  | .hbm, ⟨12, _⟩ => ⟨S_, .f32⟩
  | .local _ .vmem, ⟨0, _⟩ => ⟨S65536x24, .f32⟩
  | .local _ .vmem, ⟨1, _⟩ => ⟨S65536x24, .f32⟩
  | .local _ .vmem, ⟨2, _⟩ => ⟨S65536x24, .f32⟩
  | .local _ .vmem, ⟨3, _⟩ => ⟨S65536x24, .f32⟩
  | .local _ .vmem, ⟨4, _⟩ => ⟨S4x4, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S1048576x24x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v182 : BitVec 1 := Scalar.cmpi .eq arg0 c15_i32
  let v183 : BitVec 32 := Scalar.extui v182
  let c0_i32_56 : BitVec 32 := 0#32
  let v184 : BitVec 1 := Scalar.cmpi .ne v183 c0_i32_56
  v184

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S65536x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1048576x24x1_S1048576x24 : S1048576x24x1.ShapeCasts S1048576x24
  reducesTo_S4x4_S_d0_1 : S4x4.ReducesTo [0, 1] S_
  h_S_ : 0 < S_.numel
  bcast_S_S4x4 : S_.BroadcastsInDim S4x4 (![] : Fin 0 → Fin S4x4.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S65536x24_S65536x24_0_0 : ∀ a, (![0, 0] : Fin 2 → Nat) a + S65536x24.size a ≤ S65536x24.size a
  h_S65536x24 : 0 < S65536x24.numel
  shapeCasts_S65536x24_S65536x24 : S65536x24.ShapeCasts S65536x24
  shapeCasts_S65536x24_S1x65536x24 : S65536x24.ShapeCasts S1x65536x24
  reduces_S1x65536x24_S1 : S1x65536x24.Reduces [1, 2] S1
  shapeCasts_S1_S1x1x1 : S1.ShapeCasts S1x1x1
  inpos_S1x1x1_p0_0_0 : ∀ a, (![0, 0, 0] : Fin 3 → Nat) a < S1x1x1.size a
  reduces_S65536x24_S65536 : S65536x24.Reduces [1] S65536
  natLt_1_32 : 1 < 32
  inb_S4x4_S1x1_0_0 : ∀ a, (![0, 0] : Fin 2 → Nat) a + S1x1.size a ≤ S4x4.size a
  inpos_S1x1_p0_0 : ∀ a, (![0, 0] : Fin 2 → Nat) a < S1x1.size a
  inb_S4x4_S1x1_0_1 : ∀ a, (![0, 1] : Fin 2 → Nat) a + S1x1.size a ≤ S4x4.size a
  inb_S4x4_S1x1_0_2 : ∀ a, (![0, 2] : Fin 2 → Nat) a + S1x1.size a ≤ S4x4.size a
  inb_S4x4_S1x1_0_3 : ∀ a, (![0, 3] : Fin 2 → Nat) a + S1x1.size a ≤ S4x4.size a
  inb_S4x4_S1x1_1_0 : ∀ a, (![1, 0] : Fin 2 → Nat) a + S1x1.size a ≤ S4x4.size a
  inb_S4x4_S1x1_1_1 : ∀ a, (![1, 1] : Fin 2 → Nat) a + S1x1.size a ≤ S4x4.size a
  inb_S4x4_S1x1_1_2 : ∀ a, (![1, 2] : Fin 2 → Nat) a + S1x1.size a ≤ S4x4.size a
  inb_S4x4_S1x1_1_3 : ∀ a, (![1, 3] : Fin 2 → Nat) a + S1x1.size a ≤ S4x4.size a
  inb_S4x4_S1x1_2_0 : ∀ a, (![2, 0] : Fin 2 → Nat) a + S1x1.size a ≤ S4x4.size a
  inb_S4x4_S1x1_2_1 : ∀ a, (![2, 1] : Fin 2 → Nat) a + S1x1.size a ≤ S4x4.size a
  inb_S4x4_S1x1_2_2 : ∀ a, (![2, 2] : Fin 2 → Nat) a + S1x1.size a ≤ S4x4.size a
  inb_S4x4_S1x1_2_3 : ∀ a, (![2, 3] : Fin 2 → Nat) a + S1x1.size a ≤ S4x4.size a
  inb_S4x4_S1x1_3_0 : ∀ a, (![3, 0] : Fin 2 → Nat) a + S1x1.size a ≤ S4x4.size a
  inb_S4x4_S1x1_3_1 : ∀ a, (![3, 1] : Fin 2 → Nat) a + S1x1.size a ≤ S4x4.size a
  inb_S4x4_S1x1_3_2 : ∀ a, (![3, 2] : Fin 2 → Nat) a + S1x1.size a ≤ S4x4.size a
  inb_S4x4_S1x1_3_3 : ∀ a, (![3, 3] : Fin 2 → Nat) a + S1x1.size a ≤ S4x4.size a
  shapeCasts_S65536_S1x65536 : S65536.ShapeCasts S1x65536
  reduces_S1x65536_S1 : S1x65536.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x24.size a ≤ S1048576x24.size a
  hwx0_0 : ∀ i : grid0.Coords, EltTy.bits .f32 = 32 ∨ (Rect.block (s := S1048576x24) S65536x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x24.size a ≤ S1048576x24.size a
  hwx0_1 : ∀ i : grid0.Coords, EltTy.bits .f32 = 32 ∨ (Rect.block (s := S1048576x24) S65536x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4.size a ≤ S4x4.size a
  hwx0_2 : ∀ i : grid0.Coords, EltTy.bits .f32 = 32 ∨ (Rect.block (s := S4x4) S4x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S65536x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S65536x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1048576x24x1 : Shape := ⟨3, ![1048576, 24, 1]⟩
abbrev S4x4 : Shape := ⟨2, ![4, 4]⟩
abbrev S_ : Shape := ⟨0, ![]⟩
abbrev S1048576x1 : Shape := ⟨2, ![1048576, 1]⟩
abbrev S1048576 : Shape := ⟨1, ![1048576]⟩
abbrev S1048576x2 : Shape := ⟨2, ![1048576, 2]⟩

abbrev nBuf : Space → Nat
  | .hbm => 70
  | .vmem => 0
  | .smem => 0
  | _ => 0

abbrev bufTy : (tb : Table) → Fin (tcTables nBuf tb) → BufTy
  | .hbm, ⟨0, _⟩ => ⟨S1048576x24x1, .f32⟩
  | .hbm, ⟨1, _⟩ => ⟨S1048576x24x1, .f32⟩
  | .hbm, ⟨2, _⟩ => ⟨S4x4, .f32⟩
  | .hbm, ⟨3, _⟩ => ⟨S_, .f32⟩
  | .hbm, ⟨4, _⟩ => ⟨S1048576x1, .f32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .i1⟩
  | .hbm, ⟨9, _⟩ => ⟨S1048576, .i32⟩
  | .hbm, ⟨10, _⟩ => ⟨S_, .f32⟩
  | .hbm, ⟨11, _⟩ => ⟨S1048576, .f32⟩
  | .hbm, ⟨12, _⟩ => ⟨S1048576, .i1⟩
  | .hbm, ⟨13, _⟩ => ⟨S1048576, .i32⟩
  | .hbm, ⟨14, _⟩ => ⟨S1048576, .i32⟩
  | .hbm, ⟨15, _⟩ => ⟨S_, .f32⟩
  | .hbm, ⟨16, _⟩ => ⟨S1048576, .f32⟩
  | .hbm, ⟨17, _⟩ => ⟨S1048576, .i1⟩
  | .hbm, ⟨18, _⟩ => ⟨S1048576, .i32⟩
  | .hbm, ⟨19, _⟩ => ⟨S1048576, .i32⟩
  | .hbm, ⟨20, _⟩ => ⟨S_, .f32⟩
  | .hbm, ⟨21, _⟩ => ⟨S1048576x1, .f32⟩
  | .hbm, ⟨22, _⟩ => ⟨S1048576, .f32⟩
  | .hbm, ⟨23, _⟩ => ⟨S_, .f32⟩
  | .hbm, ⟨24, _⟩ => ⟨S1048576, .f32⟩
  | .hbm, ⟨25, _⟩ => ⟨S1048576, .i1⟩
  | .hbm, ⟨26, _⟩ => ⟨S1048576, .i32⟩
  | .hbm, ⟨27, _⟩ => ⟨S_, .f32⟩
  | .hbm, ⟨28, _⟩ => ⟨S1048576, .f32⟩
  | .hbm, ⟨29, _⟩ => ⟨S1048576, .i1⟩
  | .hbm, ⟨30, _⟩ => ⟨S1048576, .i32⟩
  | .hbm, ⟨31, _⟩ => ⟨S1048576, .i32⟩
  | .hbm, ⟨32, _⟩ => ⟨S_, .f32⟩
  | .hbm, ⟨33, _⟩ => ⟨S1048576, .f32⟩
  | .hbm, ⟨34, _⟩ => ⟨S1048576, .i1⟩
  | .hbm, ⟨35, _⟩ => ⟨S1048576, .i32⟩
  | .hbm, ⟨36, _⟩ => ⟨S1048576, .i32⟩
  | .hbm, ⟨37, _⟩ => ⟨S4x4, .f32⟩
  | .hbm, ⟨38, _⟩ => ⟨S4x4, .f32⟩
  | .hbm, ⟨39, _⟩ => ⟨S_, .f32⟩
  | .hbm, ⟨40, _⟩ => ⟨S_, .f32⟩
  | .hbm, ⟨41, _⟩ => ⟨S4x4, .f32⟩
  | .hbm, ⟨42, _⟩ => ⟨S4x4, .f32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S_, .i32⟩
  | .hbm, ⟨51, _⟩ => ⟨S1048576, .i32⟩
  | .hbm, ⟨52, _⟩ => ⟨S1048576, .i1⟩
  | .hbm, ⟨53, _⟩ => ⟨S_, .i32⟩
  | .hbm, ⟨54, _⟩ => ⟨S1048576, .i32⟩
  | .hbm, ⟨55, _⟩ => ⟨S1048576, .i32⟩
  | .hbm, ⟨56, _⟩ => ⟨S1048576, .i32⟩
  | .hbm, ⟨57, _⟩ => ⟨S1048576x1, .i32⟩
  | .hbm, ⟨58, _⟩ => ⟨S1048576x1, .i32⟩
  | .hbm, ⟨59, _⟩ => ⟨S1048576x2, .i32⟩
  | .hbm, ⟨60, _⟩ => ⟨S1048576, .f32⟩
  | .hbm, ⟨61, _⟩ => ⟨S1048576x24x1, .f32⟩
  | .hbm, ⟨62, _⟩ => ⟨S1048576x24x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S1048576x24x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  reducesTo_S1048576x24x1_S1048576x1_d1 : S1048576x24x1.ReducesTo [1] S1048576x1
  h_S_ : 0 < S_.numel
  shapeCasts_S1048576x1_S1048576 : S1048576x1.ShapeCasts S1048576
  bcast_S_S1048576 : S_.BroadcastsInDim S1048576 (![] : Fin 0 → Fin S1048576.rank)
  natLt_1_32 : 1 < 32
  reducesTo_S4x4_S_d0_1 : S4x4.ReducesTo [0, 1] S_
  bcast_S_S4x4 : S_.BroadcastsInDim S4x4 (![] : Fin 0 → Fin S4x4.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  reducesTo_S1048576x24x1_S_d0_1_2 : S1048576x24x1.ReducesTo [0, 1, 2] S_
  reducesTo_S1048576_S_d0 : S1048576.ReducesTo [0] S_
  gather_S4x4_S1048576x2_S1048576_n_01_n_n_01_1_11_wf : GatherDims.WF S4x4 S1048576x2 S1048576 [] [0, 1] [] [0, 1] [] 1 ![1, 1]

variable [Facts₀]

def gather_S4x4_S1048576x2_S1048576_n_01_n_n_01_1_11 : GatherDims S4x4 S1048576x2 S1048576 where
  offsetDims := []
  collapsedSliceDims := [0, 1]
  operandBatchingDims := []
  startIndicesBatchingDims := []
  startIndexMap := [0, 1]
  indexVectorDim := 1
  sliceSizes := ![1, 1]
  wf := gather_S4x4_S1048576x2_S1048576_n_01_n_n_01_1_11_wf

class Facts : Prop extends Facts₀ where

variable [Facts]
-- ==== Proof.KernelValue.lean ====
/-
  What the loss kernel leaves behind, point by point, read off its generated frame run.

  The grid has sixteen points.  At each the body takes the point's block of the two [65536, 24] arrays and the 4 × 4
  table, forms two numbers of them — the sum over the block of the squared differences, and the sum over the block's
  rows of the sixteen-term weight — and adds each into its own one-cell accumulator, which the first point clears
  beforehand.  The last point also multiplies the two accumulators, divides by the fixed word 0x49800000 and stores
  the quotient in the one-cell result, the only write-back of the run.  So after point n the first accumulator holds
  the cleared cell plus the first n + 1 blocks' squared-difference sums, added in point order, the second likewise for
  the weights, and the result array ends at the quotient formed of the two after point 15.  Nothing here depends on the
  float instance: the statements are about the printed payloads as functions.
-/
import proofs.«158126_j32289564131834_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.LossValue

open Cert.KernelIdeal Cert.KernelIdeal.Gen

variable {F : FTy → Type} [FloatOps F]

theorem hz : (![0, 0] : Fin 2 → Nat) = fun _ => 0 := funext fun a => by fin_cases a <;> rfl

/-- A block's weight sum: the sixteen-term weights of the block's rows, added up, as the body computes it from the
    two blocks and the table (each table entry read through its own one-cell rectangle). -/
def wBlock (x0 x1 : Vec F S65536x24 .f32) (x2 : Vec F S4x4 .f32) : F .f32 :=
  k0_pay21 (k0_pay12 (k0_pay9 x1)) (k0_pay13 (k0_pay9 x1)) (k0_pay14 (k0_pay8 x0)) (k0_pay15 (k0_pay8 x0))
    (k0_pay16 (k0_pay8 x0)) (k0_pay17 (k0_pay8 x0))
    (k0_pay19 (k0_pay10 x1) (k0_pay11 (k0_pay9 x1) 1#32) (k0_pay12 (k0_pay9 x1)) (k0_pay14 (k0_pay8 x0))
      (k0_pay15 (k0_pay8 x0)) (k0_pay16 (k0_pay8 x0)) (k0_pay17 (k0_pay8 x0))
      (k0_pay18 (k0_pay8 x0) (k0_pay10 x1) (View.ld x2 (Rect.unit ![0, 0] ![1, 1] inb_S4x4_S1x1_0_0))
        (View.ld x2 (Rect.unit ![0, 1] ![1, 1] inb_S4x4_S1x1_0_1))
        (View.ld x2 (Rect.unit ![0, 2] ![1, 1] inb_S4x4_S1x1_0_2)))
      (View.ld x2 (Rect.unit ![0, 3] ![1, 1] inb_S4x4_S1x1_0_3))
      (View.ld x2 (Rect.unit ![1, 0] ![1, 1] inb_S4x4_S1x1_1_0))
      (View.ld x2 (Rect.unit ![1, 1] ![1, 1] inb_S4x4_S1x1_1_1))
      (View.ld x2 (Rect.unit ![1, 2] ![1, 1] inb_S4x4_S1x1_1_2))
      (View.ld x2 (Rect.unit ![1, 3] ![1, 1] inb_S4x4_S1x1_1_3))
      (View.ld x2 (Rect.unit ![2, 0] ![1, 1] inb_S4x4_S1x1_2_0))
      (View.ld x2 (Rect.unit ![2, 1] ![1, 1] inb_S4x4_S1x1_2_1)))
    (k0_pay20 (View.ld x2 (Rect.unit ![2, 2] ![1, 1] inb_S4x4_S1x1_2_2)))
    (View.ld x2 (Rect.unit ![2, 3] ![1, 1] inb_S4x4_S1x1_2_3))
    (View.ld x2 (Rect.unit ![3, 0] ![1, 1] inb_S4x4_S1x1_3_0))
    (View.ld x2 (Rect.unit ![3, 1] ![1, 1] inb_S4x4_S1x1_3_1))
    (View.ld x2 (Rect.unit ![3, 2] ![1, 1] inb_S4x4_S1x1_3_2))
    (View.ld x2 (Rect.unit ![3, 3] ![1, 1] inb_S4x4_S1x1_3_3))

/-! ## What each case of the body leaves in the two accumulators and in the result cell -/

/-- A middle point adds the block's squared-difference sum into the first accumulator. -/
theorem sq_B (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 : Vec F S65536x24 .f32) (x2 : Vec F S4x4 .f32) (xs0 xs1 : Vec F S1x1 .f32) :
    sout0_B_0 c i a1 h1 a2 h2 a3 h3 a4 h4 a5 h5 a6 h6 hc0 hc1 x0 x1 x2 xs0 xs1 = k0_pay22 (k0_pay7 x0 x1) xs0 := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero hz]
  simp only [View.readAt_eq_ld, h1.read_unread, h2.read_unread, h3.read_unread, h5.read_unread, h6.read_unread, View.ld_unit_zero (S := S1x1) hz, View.ld_unit_zero (S := S65536x24) hz]

/-- A middle point adds the block's weight sum into the second accumulator. -/
theorem w_B (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 : Vec F S65536x24 .f32) (x2 : Vec F S4x4 .f32) (xs0 xs1 : Vec F S1x1 .f32) :
    sout0_B_1 c i a1 h1 a2 h2 a3 h3 a4 h4 a5 h5 a6 h6 hc0 hc1 x0 x1 x2 xs0 xs1 = k0_pay1 (wBlock x0 x1 x2) xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero hz]
  simp only [View.readAt_eq_ld, h1.read_unread, h2.read_unread, h3.read_unread, h5.read_unread, h6.read_unread, View.ld_unit_zero (S := S1x1) hz, View.ld_unit_zero (S := S65536x24) hz]
  rfl

/-- The last point does the same to the first accumulator, -/
theorem sq_C (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S65536x24 .f32) (x2 : Vec F S4x4 .f32) (xs0 xs1 : Vec F S1x1 .f32) :
    sout0_C_0 c i a1 h1 a2 h2 a3 h3 a4 h4 a5 h5 a6 h6 hc0 hc1 x0 x1 x2 xs0 xs1 = k0_pay22 (k0_pay7 x0 x1) xs0 := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread, View.ld_unit_zero (S := S1x1) hz, View.ld_unit_zero (S := S65536x24) hz]

/-- and to the second, -/
theorem w_C (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S65536x24 .f32) (x2 : Vec F S4x4 .f32) (xs0 xs1 : Vec F S1x1 .f32) :
    sout0_C_1 c i a1 h1 a2 h2 a3 h3 a4 h4 a5 h5 a6 h6 hc0 hc1 x0 x1 x2 xs0 xs1 = k0_pay1 (wBlock x0 x1 x2) xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread, View.ld_unit_zero (S := S1x1) hz, View.ld_unit_zero (S := S65536x24) hz]
  rfl

/-- and stores in the result cell the quotient formed of the two accumulators as it has just left them. -/
theorem out_C (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S65536x24 .f32) (x2 : Vec F S4x4 .f32) (xs0 xs1 : Vec F S1x1 .f32) :
    out0_C_3 c i a1 h1 a2 h2 a3 h3 a4 h4 a5 h5 a6 h6 hc0 hc1 x0 x1 x2 xs0 xs1
      = k0_pay2 (k0_pay22 (k0_pay7 x0 x1) xs0) (k0_pay1 (wBlock x0 x1 x2) xs1) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero hz, View.readCov_unit_zero (S := S1x1) _ hz, View.readCov_unit_zero (S := S1x1) _ hz]
  simp only [View.readAt_eq_ld, h1.read_unread, h2.read_unread, h3.read_unread, h5.read_unread, h6.read_unread, View.ld_unit_zero (S := S1x1) hz, View.ld_unit_zero (S := S65536x24) hz]
  rfl

/-- The first point clears the first accumulator and then adds the block's squared-difference sum, -/
theorem sq_A (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 : Vec F S65536x24 .f32) (x2 : Vec F S4x4 .f32) :
    sout0_A_0 c i a1 h1 a2 h2 a3 h3 a4 h4 a5 h5 a6 h6 hc0 hc1 x0 x1 x2 = k0_pay22 (k0_pay7 x0 x1) k0_pay3 := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h5.read_unread, h6.read_unread, View.ld_unit_zero (S := S1x1) hz, View.ld_unit_zero (S := S65536x24) hz]

/-- and clears the second and then adds the block's weight sum. -/
theorem w_A (c : Dev nD) (i : grid0.Coords) (a1 : Memref sig .tc .vmem S65536x24 .f32) (h1 : a1.IsWhole) (a2 : Memref sig .tc .vmem S65536x24 .f32) (h2 : a2.IsWhole) (a3 : Memref sig .tc .vmem S4x4 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 : Vec F S65536x24 .f32) (x2 : Vec F S4x4 .f32) :
    sout0_A_1 c i a1 h1 a2 h2 a3 h3 a4 h4 a5 h5 a6 h6 hc0 hc1 x0 x1 x2 = k0_pay1 (wBlock x0 x1 x2) k0_pay4 := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h5.read_unread, h6.read_unread, View.ld_unit_zero (S := S1x1) hz, View.ld_unit_zero (S := S65536x24) hz]
  rfl

/-! ## The accumulators after each point -/

variable (m : (ℓ : Loc nD τ sig) → Buf (Elt F) ℓ) (ρ : Dev nD → PrngReg)

/-- The first accumulator after point `n`: the cleared cell, then the blocks' squared-difference sums added in point order. -/
def sqChain (c : Dev nD) : (n : ℕ) → n < cfg0.N → Vec F S1x1 .f32
  | 0, h => k0_pay22 (k0_pay7 (iblk m c 0 ⟨0, h⟩) (iblk m c 1 ⟨0, h⟩)) k0_pay3
  | n + 1, h => k0_pay22 (k0_pay7 (iblk m c 0 ⟨n + 1, h⟩) (iblk m c 1 ⟨n + 1, h⟩)) (sqChain c n (Nat.lt_of_succ_lt h))

/-- The second accumulator after point `n`: the cleared cell, then the blocks' weight sums added in point order. -/
def wChain (c : Dev nD) : (n : ℕ) → n < cfg0.N → Vec F S1x1 .f32
  | 0, h => k0_pay1 (wBlock (iblk m c 0 ⟨0, h⟩) (iblk m c 1 ⟨0, h⟩) (iblk m c 2 ⟨0, h⟩)) k0_pay4
  | n + 1, h => k0_pay1 (wBlock (iblk m c 0 ⟨n + 1, h⟩) (iblk m c 1 ⟨n + 1, h⟩) (iblk m c 2 ⟨n + 1, h⟩)) (wChain c n (Nat.lt_of_succ_lt h))

/-- What the generated frame says the two accumulators hold after point `n` is these two running sums: by induction
    on the point, the first point by its case, a later one by the middle or the last case over the point before. -/
theorem outsAt_acc (c : Dev nD) : ∀ (n : ℕ) (h : n < cfg0.N),
    (outsAt0 m c n h).2.1 = sqChain m c n h ∧ (outsAt0 m c n h).2.2 = wChain m c n h
  | 0, h => by
    have e := outsAt0_A m c ⟨0, h⟩ (Nat.zero_mod _) (by show ¬(0 % 16 = 15); decide)
    exact ⟨(congrArg (fun p => p.2.1) e).trans (sq_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr (Nat.zero_mod _)) (fun hh => absurd ((hcond0_1 ⟨0, h⟩).mp hh) (by show ¬(0 % 16 = 15); decide)) (iblk m c 0 ⟨0, h⟩) (iblk m c 1 ⟨0, h⟩) (iblk m c 2 ⟨0, h⟩)),
      (congrArg (fun p => p.2.2) e).trans (w_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr (Nat.zero_mod _)) (fun hh => absurd ((hcond0_1 ⟨0, h⟩).mp hh) (by show ¬(0 % 16 = 15); decide)) (iblk m c 0 ⟨0, h⟩) (iblk m c 1 ⟨0, h⟩) (iblk m c 2 ⟨0, h⟩))⟩
  | n + 1, h => by
    have hN : cfg0.N = 16 := N_0
    have h0 : ¬(⟨n + 1, h⟩ : Fin cfg0.N).val % 16 = 0 := by dsimp only; omega
    obtain ⟨ih1, ih2⟩ := outsAt_acc c n (Nat.lt_of_succ_lt h)
    by_cases h1 : (⟨n + 1, h⟩ : Fin cfg0.N).val % 16 = 15
    · have e := outsAt0_C m c ⟨n + 1, h⟩ h0 h1
      refine ⟨(congrArg (fun p => p.2.1) e).trans ((sq_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2).trans ?_),
        (congrArg (fun p => p.2.2) e).trans ((w_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2).trans ?_)⟩
      · show k0_pay22 _ (outsAt0 m c n _).2.1 = k0_pay22 _ (sqChain m c n _)
        rw [ih1]
      · show k0_pay1 _ (outsAt0 m c n _).2.2 = k0_pay1 _ (wChain m c n _)
        rw [ih2]
    · have e := outsAt0_B m c ⟨n + 1, h⟩ h0 h1
      refine ⟨(congrArg (fun p => p.2.1) e).trans ((sq_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2).trans ?_),
        (congrArg (fun p => p.2.2) e).trans ((w_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2).trans ?_)⟩
      · show k0_pay22 _ (outsAt0 m c n _).2.1 = k0_pay22 _ (sqChain m c n _)
        rw [ih1]
      · show k0_pay1 _ (outsAt0 m c n _).2.2 = k0_pay1 _ (wChain m c n _)
        rw [ih2]

theorem h15 : 15 < cfg0.N := by rw [show cfg0.N = 16 from N_0]; decide

/-- The quotient the last point stores: the two accumulators after point 15, multiplied, divided by the fixed word. -/
def result (c : Dev nD) : Vec F S1x1 .f32 := k0_pay2 (sqChain m c 15 h15) (wChain m c 15 h15)

/-- The result cell after the last point holds that quotient. -/
theorem outsAt_last (c : Dev nD) : (outsAt0 m c 15 h15).1 = result m c := by
  have h0 : ¬(⟨15, h15⟩ : Fin cfg0.N).val % 16 = 0 := by decide
  have h1 : (⟨15, h15⟩ : Fin cfg0.N).val % 16 = 15 := by decide
  have e := outsAt0_C m c ⟨15, h15⟩ h0 h1
  obtain ⟨ih1, ih2⟩ := outsAt_acc m c 14 (Nat.lt_of_succ_lt h15)
  refine (congrArg (fun p => p.1) e).trans ((out_C c (grid0.coords ⟨15, h15⟩) (ms0_0 ⟨15, h15⟩) (hs0_0 ⟨15, h15⟩) (ms0_1 ⟨15, h15⟩) (hs0_1 ⟨15, h15⟩) (ms0_2 ⟨15, h15⟩) (hs0_2 ⟨15, h15⟩) (ms0_3 ⟨15, h15⟩) (hs0_3 ⟨15, h15⟩) scM0_0 (Memref.isWhole_whole _) scM0_1 (Memref.isWhole_whole _) (fun hh => h0 ((hcond0_0 ⟨15, h15⟩).mp hh)) ((hcond0_1 ⟨15, h15⟩).mpr h1) (iblk m c 0 ⟨15, h15⟩) (iblk m c 1 ⟨15, h15⟩) (iblk m c 2 ⟨15, h15⟩) (outsAt0 m c 14 (Nat.lt_of_succ_lt h15)).2.1 (outsAt0 m c 14 (Nat.lt_of_succ_lt h15)).2.2).trans ?_)
  show k0_pay2 (k0_pay22 _ (outsAt0 m c 14 _).2.1) (k0_pay1 _ (outsAt0 m c 14 _).2.2) = k0_pay2 (k0_pay22 _ (sqChain m c 14 _)) (k0_pay1 _ (wChain m c 14 _))
  rw [ih1, ih2]

/-! ## The result array, the reshape after the region, and the run -/

/-- The one write-back, after point 15, writes that quotient: block (0, 0) of the one-cell array is the array. -/
theorem flushed_eq (c : Dev nD) (t : Fin cfg0.N) (hf : (cfg0.win 3).flush t = true) :
    (dats m 0 c).flushed 3 t = ((cfg0.win 3).blk t).view.read (Elt F) (result m c) := by
  have hN : cfg0.N = 16 := N_0
  have h3 : t.val = 15 := by have := (flush0_3 t).mp hf; have := t.isLt; omega
  obtain rfl : t = t0_15 := Fin.ext h3
  show (cfg0.win 3).cut (grid0.coords t0_15) ((dats m 0 c).after 3 t0_15) = _
  rw [after0_3]
  rw [show (outsAt0 m c t0_15.val t0_15.isLt).1 = result m c from outsAt_last m c]
  have hz' : (fun a => win0_3.index t0_15 a * main_v7.ty.shape.size a) = fun _ => 0 := funext fun a => by fin_cases a <;> decide
  exact (Memref.read_access_unit_zero (Elt F) main_v7 hz' (fun a => by rw [congrFun hz' a]; simp) (result m c)).symm

/-- So the one-cell result array ends holding the quotient: the last point's block covers it. -/
theorem final_o (c : Dev nD) : (dats m 0 c).arrAt 3 cfg0.N = result m c :=
  (dats m 0 c).arrAt_eq_of_cover 3 (result m c) (flushed_eq m c) fun i =>
    ⟨t0_15, (flush0_3 t0_15).mpr (by decide), by
      show i ∈ ((View.whole main_v7).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The program's result: the reshape after the region reads the one-cell array as a scalar. -/
theorem tail_eq (c : Dev nD) :
    Pipeline.afterTail₀ cfgs (dats m) 0 (V0 m) [hostOps1] c main_v8 = shapeCast S_ (result m c) shapeCasts_S1x1_S_ := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7) = result m c :=
    (Pipeline.withArrays_arr spec0 launch0.win.arr_inj c _ _ 3).trans (final_o m c)
  rw [e]
  rfl

/-- THE RUN, READ: every weakly fair execution of the program terminates with its scalar result at the quotient read
    as a scalar, and its three argument arrays unchanged. -/
theorem run : θ_run defs (onTc (τ := τ) (main (F := F))) ⟨m, fun _ => 0, ρ⟩ fun r => ∀ c : Dev nD,
      r.2.mem ((c.tc : Thread nD τ).loc main_v8) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.LossValue

end
-- ==== Proof.LossSpec.lean ====
/-
  The scalar arithmetic of the weighted loss, on the extended reals.

  A row's class counts how many of the thresholds 0, 1, 2 its maximum reaches: a 32-bit word among 0, 1, 2, 3.
  The weight of a row is an entry of a 4 × 4 table chosen by two classes.  One program reads the entry by position;
  the other adds up all sixteen entries, each multiplied by two indicators (1 when the class is the entry's row or
  column number, else 0).  Fifteen of the sixteen products vanish and the sixteenth is the entry itself, since
  x · 0 = 0, x · 1 = x and 0 + x = x hold for every extended real x: no finiteness is used.
-/
import Idealize.ShloMosaic.PureOps.Ideal
import Idealize.ShloMosaic.PureOps.Ideal.Laws

noncomputable section

namespace Cert.LossSpec

open Idealize.ShloMosaic

/-- The class of a row maximum `v`: the number of thresholds among 0, 1, 2 that `v` reaches, as a 32-bit word. -/
def cls (v : Ideal .f32) : BitVec 32 :=
  IntOp.addi (IntOp.addi ((FloatOps.cmpf .oge v (FloatOps.ofBits .f32 0x00000000#32)).setWidth 32)
      ((FloatOps.cmpf .oge v (FloatOps.ofBits .f32 0x3F800000#32)).setWidth 32))
    ((FloatOps.cmpf .oge v (FloatOps.ofBits .f32 0x40000000#32)).setWidth 32)

/-- A class is one of the four words 0, 1, 2, 3: a sum of three bits. -/
theorem cls_cases (v : Ideal .f32) : cls v = 0#32 ∨ cls v = 1#32 ∨ cls v = 2#32 ∨ cls v = 3#32 := by
  unfold cls IntOp.addi
  rcases BitVec.eq_zero_or_eq_one (FloatOps.cmpf .oge v (FloatOps.ofBits .f32 0x00000000#32)) with h0 | h0 <;>
  rcases BitVec.eq_zero_or_eq_one (FloatOps.cmpf .oge v (FloatOps.ofBits .f32 0x3F800000#32)) with h1 | h1 <;>
  rcases BitVec.eq_zero_or_eq_one (FloatOps.cmpf .oge v (FloatOps.ofBits .f32 0x40000000#32)) with h2 | h2 <;>
  rw [h0, h1, h2] <;> decide

/-- The table position a class word selects. -/
def sel (c : BitVec 32) : Fin 4 := ⟨c.toNat % 4, Nat.mod_lt _ (by decide)⟩

/-- The indicator of class `k` at the class word `c`, as an extended real: 1 when `c = k`, else 0. -/
def oneHot (k c : BitVec 32) : Ideal .f32 := FloatOps.sitofp .f32 ((IntOp.cmpi .eq c k).setWidth 32)

theorem oneHot_eq (k c : BitVec 32) : oneHot k c = if c = k then 1 else 0 := by
  unfold oneHot IntOp.cmpi
  show (((BitVec.setWidth 32 (BitVec.ofBool (c == k))).toInt : ℝ) : EReal) = _
  by_cases h : c = k
  · subst h; simp
  · have hb : (c == k) = false := by simpa using h
    rw [hb, if_neg h]; simp

/-- The sixteen-term weight: from zero, add each table entry times the indicators of its row and of its column. -/
def weight16 (s : Fin 4 → Fin 4 → Ideal .f32) (tc pc : BitVec 32) : Ideal .f32 :=
  ((((((((((((((((Ideal.ofBits .f32 0x00000000#32 + s 0 0 * oneHot 0#32 tc * oneHot 0#32 pc) + s 0 1 * oneHot 0#32 tc * oneHot 1#32 pc) + s 0 2 * oneHot 0#32 tc * oneHot 2#32 pc) + s 0 3 * oneHot 0#32 tc * oneHot 3#32 pc) + s 1 0 * oneHot 1#32 tc * oneHot 0#32 pc) + s 1 1 * oneHot 1#32 tc * oneHot 1#32 pc) + s 1 2 * oneHot 1#32 tc * oneHot 2#32 pc) + s 1 3 * oneHot 1#32 tc * oneHot 3#32 pc) + s 2 0 * oneHot 2#32 tc * oneHot 0#32 pc) + s 2 1 * oneHot 2#32 tc * oneHot 1#32 pc) + s 2 2 * oneHot 2#32 tc * oneHot 2#32 pc) + s 2 3 * oneHot 2#32 tc * oneHot 3#32 pc) + s 3 0 * oneHot 3#32 tc * oneHot 0#32 pc) + s 3 1 * oneHot 3#32 tc * oneHot 1#32 pc) + s 3 2 * oneHot 3#32 tc * oneHot 2#32 pc) + s 3 3 * oneHot 3#32 tc * oneHot 3#32 pc)

/-- Of the sixteen products only the one at the two classes' position survives. -/
theorem weight16_eq (s : Fin 4 → Fin 4 → Ideal .f32) (tc pc : BitVec 32)
    (ht : tc = 0#32 ∨ tc = 1#32 ∨ tc = 2#32 ∨ tc = 3#32) (hp : pc = 0#32 ∨ pc = 1#32 ∨ pc = 2#32 ∨ pc = 3#32) :
    weight16 s tc pc = s (sel tc) (sel pc) := by
  unfold weight16
  simp only [oneHot_eq, Ideal.ofBits_zero_f32]
  rcases ht with rfl | rfl | rfl | rfl <;> rcases hp with rfl | rfl | rfl | rfl <;>
    simp [sel] <;> rfl

/-- A class word is not negative as a signed integer, so the wrap-around of a negative position leaves it alone. -/
theorem wrap_eq (c : BitVec 32) (hc : c = 0#32 ∨ c = 1#32 ∨ c = 2#32 ∨ c = 3#32) :
    Scalar.select (IntOp.cmpi .slt c 0#32) (IntOp.addi c 4#32) c = c := by
  rcases hc with rfl | rfl | rfl | rfl <;> decide

/-- Clamping a class word, read as a signed integer, into the table's range gives its position. -/
theorem clamp_eq (c : BitVec 32) (hc : c = 0#32 ∨ c = 1#32 ∨ c = 2#32 ∨ c = 3#32) :
    min c.toInt.toNat (4 - 1) = (sel c).val := by
  rcases hc with rfl | rfl | rfl | rfl <;> decide

/-- The running maximum of a row's 24 entries, from minus infinity. -/
def rowMax (f : Fin 24 → Ideal .f32) : Ideal .f32 :=
  (Finset.univ : Finset (Fin 24)).fold max (Ideal.ofBits .f32 0xFF800000#32) f

/-- A row's squared differences, added up. -/
def rowSq (p q : Fin 24 → Ideal .f32) : Ideal .f32 := ∑ l : Fin 24, (p l - q l) * (p l - q l)

end Cert.LossSpec

end
-- ==== Proof.LibBlockSums.lean ====
/-
  Re-indexings of a finite sum: over the indices of a rank-three shape, and over a range cut into equal blocks.

  An index of a shape `[a, b, c]` is its three coordinates, so a sum over all its indices, in any commutative monoid,
  is the triple sum over the coordinates.  A number below `n · k` is `t · k + r` for exactly one block `t < n` and one
  offset `r < k`, so a sum over `Fin (n · k)` is the sum over the blocks of the sums over the offsets.
-/
import Idealize.ShloMosaic.Lib.ValueIdx

namespace Cert.LibBlockSums

open Idealize.ShloMosaic Idealize.ShloMosaic.ValueIdx

/-- A rank-three index set is the product of its three coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over the indices of a shape `[a, b, c]` is the triple sum over the coordinates. -/
theorem sum_idx3 {M : Type*} [AddCommMonoid M] {a b c : Nat} (f : (⟨3, ![a, b, c]⟩ : Shape).Idx → M) :
    ∑ i, f i = ∑ x : Fin a, ∑ y : Fin b, ∑ z : Fin c, f (ix3 x y z) := by
  rw [← Equiv.sum_comp (idxEquiv3 (a := a) (b := b) (c := c)).symm f, Fintype.sum_prod_type]
  refine Finset.sum_congr rfl fun x _ => ?_
  rw [Fintype.sum_prod_type]
  rfl

/-- With a unit last axis the innermost sum has one term. -/
theorem sum_idx3_unit_last {M : Type*} [AddCommMonoid M] {a b : Nat} (f : (⟨3, ![a, b, 1]⟩ : Shape).Idx → M) :
    ∑ i, f i = ∑ x : Fin a, ∑ y : Fin b, f (ix3 x y 0) := by
  rw [sum_idx3]
  exact Finset.sum_congr rfl fun x _ => Finset.sum_congr rfl fun y _ => Fin.sum_univ_one _

/-- With a unit first axis the outermost sum has one term. -/
theorem sum_idx3_unit_first {M : Type*} [AddCommMonoid M] {b c : Nat} (f : (⟨3, ![1, b, c]⟩ : Shape).Idx → M) :
    ∑ i, f i = ∑ y : Fin b, ∑ z : Fin c, f (ix3 0 y z) := by
  rw [sum_idx3]
  exact Fin.sum_univ_one _

/-- With a unit first axis a rank-two sum is the sum over the second coordinate. -/
theorem sum_idx2_unit_first {M : Type*} [AddCommMonoid M] {b : Nat} (f : (⟨2, ![1, b]⟩ : Shape).Idx → M) :
    ∑ i, f i = ∑ y : Fin b, f (ix2 0 y) := by
  rw [sum_idx2]
  exact Fin.sum_univ_one _

/-- Entry `r` of block `t`, of `n` blocks of `k` entries each. -/
def blockEntry {n k : Nat} (t : Fin n) (r : Fin k) : Fin (n * k) :=
  ⟨t.val * k + r.val, by
    have ht := t.isLt; have hr := r.isLt
    calc t.val * k + r.val < t.val * k + k := by omega
      _ = (t.val + 1) * k := by ring
      _ ≤ n * k := Nat.mul_le_mul_right k (by omega)⟩

/-- A sum over `n · k` entries is the sum over the `n` blocks of the sums over each block's `k` entries. -/
theorem sum_blocks {M : Type*} [AddCommMonoid M] (n k : Nat) (g : Fin (n * k) → M) :
    ∑ b, g b = ∑ t : Fin n, ∑ r : Fin k, g (blockEntry t r) := by
  rw [← Equiv.sum_comp (finProdFinEquiv (m := n) (n := k)) g, Fintype.sum_prod_type]
  refine Finset.sum_congr rfl fun t _ => Finset.sum_congr rfl fun r _ => congrArg g (Fin.ext ?_)
  show r.val + k * t.val = t.val * k + r.val
  ring

end Cert.LibBlockSums
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.KernelBlocks.lean ====
/-
  One block's two numbers on the extended reals.

  Over the extended reals the block's first number is the plain double sum, over its 65536 rows and 24 lanes, of the
  squared differences of the two blocks' entries: a reduction over both axes at once is the sum over every index, and a
  change of shape in front of it only renames the indices.  The second number is the sum over the rows of the
  sixteen-term weight at the two classes of the row: the class of the running maximum of the second block's row picks
  the table's row, that of the first block's row picks the table's column.
-/
import proofs.«158126_j32289564131834_1_alg».proof.Proof.KernelValue
import proofs.«158126_j32289564131834_1_alg».proof.Proof.LossSpec
import proofs.«158126_j32289564131834_1_alg».proof.Proof.LibBlockSums
import proofs.«158126_j32289564131834_1_alg».proof.Proof.LibAxisReductions
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.LossBlocks

open Cert.KernelIdeal Cert.KernelIdeal.Gen Cert.KernelIdeal.LossValue Cert.LossSpec Cert.LibBlockSums Cert.Lib.AxisReductions

/-- The squared-difference sum of a block is the double sum over its rows and lanes. -/
theorem sqBlock_eq (x0 x1 : Vec Ideal S65536x24 .f32) :
    k0_pay7 (F := Ideal) x0 x1 = ∑ r : Fin 65536, rowSq (fun l => x0 (ix2 r l)) (fun l => x1 (ix2 r l)) := by
  unfold k0_pay7 k0_pay5 k0_pay6 extractAt
  dsimp only
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x65536x24_S1 (fun b => by fin_cases b; rfl) _ _ _).trans ?_
  refine (sum_idx3_unit_first _).trans ?_
  refine Finset.sum_congr rfl fun r _ => Finset.sum_congr rfl fun l _ => ?_
  refine (shapeCast_apply _ shapeCasts_S65536x24_S1x65536x24 _ (ix2 r l) ?_).trans ?_
  · rw [Shape.rowMajor_val_two, Shape.rowMajor_val_three]
    show r.val * 24 + l.val = (0 * 65536 + r.val) * 24 + l.val
    omega
  simp only [mulf, subf, shapeCast_self, Ideal.mulf_def, Ideal.subf_def]

/-- The running maximum along a row of a block, as the body's lane reduction computes it. -/
theorem rowMax_apply (x : Vec Ideal S65536x24 .f32) (r : Fin 65536) :
    multiReduction .maximumf [1] S65536 (shapeCast S65536x24 x shapeCasts_S65536x24_S65536x24) 0xFF800000#32
        reduces_S65536x24_S65536 (.inl rfl) rfl (ix1 r)
      = rowMax fun k => x (ix2 r k) := by
  refine (Ideal.multiReduction_maximumf_single _ _ reduces_S65536x24_S65536 _ _ (ix1 r)).trans ?_
  unfold rowMax
  refine congrArg (fun f => Finset.fold max (Ideal.ofBits .f32 0xFF800000#32) f (Finset.univ : Finset (Fin 24))) (funext fun k => ?_)
  show shapeCast S65536x24 x shapeCasts_S65536x24_S65536x24 (reduces_S65536x24_S65536.lift (ix1 r) k) = x (ix2 r k)
  rw [shapeCast_self, lift_cols]
  rfl

/-- The class word of a lane, from the lane's value. -/
theorem classVec (v : FVec Ideal S65536 .f32) (r : Fin 65536) :
    addi (addi (extui 32 (cmpf .oge v (broadcast S65536 (FloatOps.ofBits .f32 0x00000000#32))) natLt_1_32)
        (extui 32 (cmpf .oge v (broadcast S65536 (FloatOps.ofBits .f32 0x3F800000#32))) natLt_1_32))
      (extui 32 (cmpf .oge v (broadcast S65536 (FloatOps.ofBits .f32 0x40000000#32))) natLt_1_32) (ix1 r)
      = cls (v (ix1 r)) := rfl

/-- The class word the body forms for row `r` of the first block. -/
theorem class0_apply (x0 : Vec Ideal S65536x24 .f32) (r : Fin 65536) :
    k0_pay8 (F := Ideal) x0 (ix1 r) = cls (rowMax fun k => x0 (ix2 r k)) := by
  have e := rowMax_apply x0 r
  unfold k0_pay8 k0_pay5
  dsimp only
  generalize multiReduction (F := Ideal) .maximumf [1] S65536 (shapeCast S65536x24 x0 shapeCasts_S65536x24_S65536x24) 0xFF800000#32 reduces_S65536x24_S65536 (.inl rfl) rfl = v at e ⊢
  rw [← e]
  exact classVec v r

/-- The class word the body forms for row `r` of the second block. -/
theorem class1_apply (x1 : Vec Ideal S65536x24 .f32) (r : Fin 65536) :
    k0_pay9 (F := Ideal) x1 (ix1 r) = cls (rowMax fun k => x1 (ix2 r k)) := by
  have e := rowMax_apply x1 r
  unfold k0_pay9 k0_pay6
  dsimp only
  generalize multiReduction (F := Ideal) .maximumf [1] S65536 (shapeCast S65536x24 x1 shapeCasts_S65536x24_S65536x24) 0xFF800000#32 reduces_S65536x24_S65536 (.inl rfl) rfl = v at e ⊢
  rw [← e]
  exact classVec v r

/-- A table entry read through its own one-cell rectangle is the entry. -/
theorem ld_cell (x2 : Vec Ideal S4x4 .f32) (i j : ℕ) (inb : ∀ a, (![i, j] : Fin 2 → ℕ) a + S1x1.size a ≤ S4x4.size a)
    (hi : i < 4) (hj : j < 4) (hp : ∀ a, (![0, 0] : Fin 2 → Nat) a < S1x1.size a) :
    (View.ld x2 (Rect.unit ![i, j] ![1, 1] inb) fun a => ⟨(![0, 0] : Fin 2 → Nat) a, hp a⟩)
      = x2 (ix2 (⟨i, hi⟩ : Fin 4) (⟨j, hj⟩ : Fin 4)) := by
  show x2 _ = x2 _
  refine congrArg x2 ?_
  funext a
  apply Fin.ext
  match a with
  | ⟨0, _⟩ => show i + 1 * 0 = i; omega
  | ⟨1, _⟩ => show j + 1 * 0 = j; omega

/-- The sixteen entries, each read through its own rectangle, are the table. -/
theorem tbl_apply (x2 : Vec Ideal S4x4 .f32) (a b : Fin 4) :
    (![![(View.ld x2 (Rect.unit ![0, 0] ![1, 1] inb_S4x4_S1x1_0_0) fun a => ⟨(![0, 0] : Fin 2 → Nat) a, inpos_S1x1_p0_0 a⟩),
      (View.ld x2 (Rect.unit ![0, 1] ![1, 1] inb_S4x4_S1x1_0_1) fun a => ⟨(![0, 0] : Fin 2 → Nat) a, inpos_S1x1_p0_0 a⟩),
      (View.ld x2 (Rect.unit ![0, 2] ![1, 1] inb_S4x4_S1x1_0_2) fun a => ⟨(![0, 0] : Fin 2 → Nat) a, inpos_S1x1_p0_0 a⟩),
      (View.ld x2 (Rect.unit ![0, 3] ![1, 1] inb_S4x4_S1x1_0_3) fun a => ⟨(![0, 0] : Fin 2 → Nat) a, inpos_S1x1_p0_0 a⟩)],
    ![(View.ld x2 (Rect.unit ![1, 0] ![1, 1] inb_S4x4_S1x1_1_0) fun a => ⟨(![0, 0] : Fin 2 → Nat) a, inpos_S1x1_p0_0 a⟩),
      (View.ld x2 (Rect.unit ![1, 1] ![1, 1] inb_S4x4_S1x1_1_1) fun a => ⟨(![0, 0] : Fin 2 → Nat) a, inpos_S1x1_p0_0 a⟩),
      (View.ld x2 (Rect.unit ![1, 2] ![1, 1] inb_S4x4_S1x1_1_2) fun a => ⟨(![0, 0] : Fin 2 → Nat) a, inpos_S1x1_p0_0 a⟩),
      (View.ld x2 (Rect.unit ![1, 3] ![1, 1] inb_S4x4_S1x1_1_3) fun a => ⟨(![0, 0] : Fin 2 → Nat) a, inpos_S1x1_p0_0 a⟩)],
    ![(View.ld x2 (Rect.unit ![2, 0] ![1, 1] inb_S4x4_S1x1_2_0) fun a => ⟨(![0, 0] : Fin 2 → Nat) a, inpos_S1x1_p0_0 a⟩),
      (View.ld x2 (Rect.unit ![2, 1] ![1, 1] inb_S4x4_S1x1_2_1) fun a => ⟨(![0, 0] : Fin 2 → Nat) a, inpos_S1x1_p0_0 a⟩),
      (View.ld x2 (Rect.unit ![2, 2] ![1, 1] inb_S4x4_S1x1_2_2) fun a => ⟨(![0, 0] : Fin 2 → Nat) a, inpos_S1x1_p0_0 a⟩),
      (View.ld x2 (Rect.unit ![2, 3] ![1, 1] inb_S4x4_S1x1_2_3) fun a => ⟨(![0, 0] : Fin 2 → Nat) a, inpos_S1x1_p0_0 a⟩)],
    ![(View.ld x2 (Rect.unit ![3, 0] ![1, 1] inb_S4x4_S1x1_3_0) fun a => ⟨(![0, 0] : Fin 2 → Nat) a, inpos_S1x1_p0_0 a⟩),
      (View.ld x2 (Rect.unit ![3, 1] ![1, 1] inb_S4x4_S1x1_3_1) fun a => ⟨(![0, 0] : Fin 2 → Nat) a, inpos_S1x1_p0_0 a⟩),
      (View.ld x2 (Rect.unit ![3, 2] ![1, 1] inb_S4x4_S1x1_3_2) fun a => ⟨(![0, 0] : Fin 2 → Nat) a, inpos_S1x1_p0_0 a⟩),
      (View.ld x2 (Rect.unit ![3, 3] ![1, 1] inb_S4x4_S1x1_3_3) fun a => ⟨(![0, 0] : Fin 2 → Nat) a, inpos_S1x1_p0_0 a⟩)]] : Fin 4 → Fin 4 → Ideal .f32) a b = x2 (ix2 a b) := by
  match a, b with
  | ⟨0, _⟩, ⟨0, _⟩ => exact ld_cell x2 0 0 inb_S4x4_S1x1_0_0 (by decide) (by decide) inpos_S1x1_p0_0
  | ⟨0, _⟩, ⟨1, _⟩ => exact ld_cell x2 0 1 inb_S4x4_S1x1_0_1 (by decide) (by decide) inpos_S1x1_p0_0
  | ⟨0, _⟩, ⟨2, _⟩ => exact ld_cell x2 0 2 inb_S4x4_S1x1_0_2 (by decide) (by decide) inpos_S1x1_p0_0
  | ⟨0, _⟩, ⟨3, _⟩ => exact ld_cell x2 0 3 inb_S4x4_S1x1_0_3 (by decide) (by decide) inpos_S1x1_p0_0
  | ⟨1, _⟩, ⟨0, _⟩ => exact ld_cell x2 1 0 inb_S4x4_S1x1_1_0 (by decide) (by decide) inpos_S1x1_p0_0
  | ⟨1, _⟩, ⟨1, _⟩ => exact ld_cell x2 1 1 inb_S4x4_S1x1_1_1 (by decide) (by decide) inpos_S1x1_p0_0
  | ⟨1, _⟩, ⟨2, _⟩ => exact ld_cell x2 1 2 inb_S4x4_S1x1_1_2 (by decide) (by decide) inpos_S1x1_p0_0
  | ⟨1, _⟩, ⟨3, _⟩ => exact ld_cell x2 1 3 inb_S4x4_S1x1_1_3 (by decide) (by decide) inpos_S1x1_p0_0
  | ⟨2, _⟩, ⟨0, _⟩ => exact ld_cell x2 2 0 inb_S4x4_S1x1_2_0 (by decide) (by decide) inpos_S1x1_p0_0
  | ⟨2, _⟩, ⟨1, _⟩ => exact ld_cell x2 2 1 inb_S4x4_S1x1_2_1 (by decide) (by decide) inpos_S1x1_p0_0
  | ⟨2, _⟩, ⟨2, _⟩ => exact ld_cell x2 2 2 inb_S4x4_S1x1_2_2 (by decide) (by decide) inpos_S1x1_p0_0
  | ⟨2, _⟩, ⟨3, _⟩ => exact ld_cell x2 2 3 inb_S4x4_S1x1_2_3 (by decide) (by decide) inpos_S1x1_p0_0
  | ⟨3, _⟩, ⟨0, _⟩ => exact ld_cell x2 3 0 inb_S4x4_S1x1_3_0 (by decide) (by decide) inpos_S1x1_p0_0
  | ⟨3, _⟩, ⟨1, _⟩ => exact ld_cell x2 3 1 inb_S4x4_S1x1_3_1 (by decide) (by decide) inpos_S1x1_p0_0
  | ⟨3, _⟩, ⟨2, _⟩ => exact ld_cell x2 3 2 inb_S4x4_S1x1_3_2 (by decide) (by decide) inpos_S1x1_p0_0
  | ⟨3, _⟩, ⟨3, _⟩ => exact ld_cell x2 3 3 inb_S4x4_S1x1_3_3 (by decide) (by decide) inpos_S1x1_p0_0

/-- The body's sixteen-term weight vector at a row, from the two class-word vectors and sixteen scalars. -/
theorem weightVec (c0 c1 : IVec S65536 32) (s00 s01 s02 s03 s10 s11 s12 s13 s20 s21 s22 s23 s30 s31 s32 s33 : Ideal .f32) (r : Fin 65536) :
    (addf (addf (addf (addf (addf (addf (addf (addf (addf (addf (addf (addf (addf (addf (addf (addf (broadcast S65536 (FloatOps.ofBits (F := Ideal) .f32 0x00000000#32))
      (mulf (mulf (broadcast S65536 s00) (sitofp .f32 (extui 32 (cmpi .eq c1 (broadcast S65536 0#32)) natLt_1_32)))
        (sitofp .f32 (extui 32 (cmpi .eq c0 (broadcast S65536 0#32)) natLt_1_32))))
      (mulf (mulf (broadcast S65536 s01) (sitofp .f32 (extui 32 (cmpi .eq c1 (broadcast S65536 0#32)) natLt_1_32)))
        (sitofp .f32 (extui 32 (cmpi .eq c0 (broadcast S65536 1#32)) natLt_1_32))))
      (mulf (mulf (broadcast S65536 s02) (sitofp .f32 (extui 32 (cmpi .eq c1 (broadcast S65536 0#32)) natLt_1_32)))
        (sitofp .f32 (extui 32 (cmpi .eq c0 (broadcast S65536 2#32)) natLt_1_32))))
      (mulf (mulf (broadcast S65536 s03) (sitofp .f32 (extui 32 (cmpi .eq c1 (broadcast S65536 0#32)) natLt_1_32)))
        (sitofp .f32 (extui 32 (cmpi .eq c0 (broadcast S65536 3#32)) natLt_1_32))))
      (mulf (mulf (broadcast S65536 s10) (sitofp .f32 (extui 32 (cmpi .eq c1 (broadcast S65536 1#32)) natLt_1_32)))
        (sitofp .f32 (extui 32 (cmpi .eq c0 (broadcast S65536 0#32)) natLt_1_32))))
      (mulf (mulf (broadcast S65536 s11) (sitofp .f32 (extui 32 (cmpi .eq c1 (broadcast S65536 1#32)) natLt_1_32)))
        (sitofp .f32 (extui 32 (cmpi .eq c0 (broadcast S65536 1#32)) natLt_1_32))))
      (mulf (mulf (broadcast S65536 s12) (sitofp .f32 (extui 32 (cmpi .eq c1 (broadcast S65536 1#32)) natLt_1_32)))
        (sitofp .f32 (extui 32 (cmpi .eq c0 (broadcast S65536 2#32)) natLt_1_32))))
      (mulf (mulf (broadcast S65536 s13) (sitofp .f32 (extui 32 (cmpi .eq c1 (broadcast S65536 1#32)) natLt_1_32)))
        (sitofp .f32 (extui 32 (cmpi .eq c0 (broadcast S65536 3#32)) natLt_1_32))))
      (mulf (mulf (broadcast S65536 s20) (sitofp .f32 (extui 32 (cmpi .eq c1 (broadcast S65536 2#32)) natLt_1_32)))
        (sitofp .f32 (extui 32 (cmpi .eq c0 (broadcast S65536 0#32)) natLt_1_32))))
      (mulf (mulf (broadcast S65536 s21) (sitofp .f32 (extui 32 (cmpi .eq c1 (broadcast S65536 2#32)) natLt_1_32)))
        (sitofp .f32 (extui 32 (cmpi .eq c0 (broadcast S65536 1#32)) natLt_1_32))))
      (mulf (mulf (broadcast S65536 s22) (sitofp .f32 (extui 32 (cmpi .eq c1 (broadcast S65536 2#32)) natLt_1_32)))
        (sitofp .f32 (extui 32 (cmpi .eq c0 (broadcast S65536 2#32)) natLt_1_32))))
      (mulf (mulf (broadcast S65536 s23) (sitofp .f32 (extui 32 (cmpi .eq c1 (broadcast S65536 2#32)) natLt_1_32)))
        (sitofp .f32 (extui 32 (cmpi .eq c0 (broadcast S65536 3#32)) natLt_1_32))))
      (mulf (mulf (broadcast S65536 s30) (sitofp .f32 (extui 32 (cmpi .eq c1 (broadcast S65536 3#32)) natLt_1_32)))
        (sitofp .f32 (extui 32 (cmpi .eq c0 (broadcast S65536 0#32)) natLt_1_32))))
      (mulf (mulf (broadcast S65536 s31) (sitofp .f32 (extui 32 (cmpi .eq c1 (broadcast S65536 3#32)) natLt_1_32)))
        (sitofp .f32 (extui 32 (cmpi .eq c0 (broadcast S65536 1#32)) natLt_1_32))))
      (mulf (mulf (broadcast S65536 s32) (sitofp .f32 (extui 32 (cmpi .eq c1 (broadcast S65536 3#32)) natLt_1_32)))
        (sitofp .f32 (extui 32 (cmpi .eq c0 (broadcast S65536 2#32)) natLt_1_32))))
      (mulf (mulf (broadcast S65536 s33) (sitofp .f32 (extui 32 (cmpi .eq c1 (broadcast S65536 3#32)) natLt_1_32)))
        (sitofp .f32 (extui 32 (cmpi .eq c0 (broadcast S65536 3#32)) natLt_1_32)))) (ix1 r)
      = weight16 (fun a b => (![![s00, s01, s02, s03], ![s10, s11, s12, s13], ![s20, s21, s22, s23], ![s30, s31, s32, s33]] : Fin 4 → Fin 4 → Ideal .f32) a b) (c1 (ix1 r)) (c0 (ix1 r)) := rfl

/-- The weight sum of a block is the sum over its rows of the table entry at the rows' two classes: the class of the
    second block's row maximum picks the table's row, that of the first block's picks the column. -/
theorem wBlock_eq (x0 x1 : Vec Ideal S65536x24 .f32) (x2 : Vec Ideal S4x4 .f32) :
    wBlock (F := Ideal) x0 x1 x2
      = ∑ r : Fin 65536, x2 (ix2 (sel (cls (rowMax fun k => x1 (ix2 r k)))) (sel (cls (rowMax fun k => x0 (ix2 r k))))) := by
  unfold wBlock k0_pay21
  dsimp only
  unfold extractAt
  refine (shapeCast_apply _ shapeCasts_S1_S1x1 _ (ix1 (0 : Fin 1)) ?_).trans ?_
  · rw [Shape.rowMajor_val_one, Shape.rowMajor_val_two]; rfl
  refine (Ideal.multiReduction_add_total _ _ reduces_S1x65536_S1 (fun b => by fin_cases b; rfl) _ _ _).trans ?_
  refine (sum_idx2_unit_first _).trans ?_
  refine Finset.sum_congr rfl fun r _ => ?_
  refine (shapeCast_apply _ shapeCasts_S65536_S1x65536 _ (ix1 r) ?_).trans ?_
  · rw [Shape.rowMajor_val_one, Shape.rowMajor_val_two]
    show r.val = 0 * 65536 + r.val
    omega
  have h0 := class0_apply x0 r
  have h1 := class1_apply x1 r
  unfold k0_pay19 k0_pay18 k0_pay10 k0_pay11 k0_pay12 k0_pay13 k0_pay14 k0_pay15 k0_pay16 k0_pay17 k0_pay20 extractAt
  dsimp only
  generalize k0_pay9 (F := Ideal) x1 = c1 at h1 ⊢
  generalize k0_pay8 (F := Ideal) x0 = c0 at h0 ⊢
  refine (weightVec c0 c1 _ _ _ _ _ _ _ _ _ _ _ _ _ _ _ _ r).trans ?_
  rw [h0, h1, weight16_eq _ _ _ (cls_cases _) (cls_cases _)]
  exact tbl_apply x2 _ _

end Cert.KernelIdeal.LossBlocks

end
-- ==== Proof.KernelTotal.lean ====
/-
  The kernel's result on the extended reals, as sums over the argument arrays.

  Point `t` of the grid sees rows `65536·t … 65536·t + 65535` of the two [1048576, 24] arrays, which are the two
  [1048576, 24, 1] arguments with the unit axis dropped, and the whole 4 × 4 table, which is the third argument after
  the normalising host operations.  Adding a block's number into an accumulator sixteen times, starting from zero,
  leaves the sum over the sixteen points.  So the program's result is the quotient, by the fixed word, of the product
  of two sums over the points: of the blocks' squared-difference sums, and of the blocks' weight sums.
-/
import proofs.«158126_j32289564131834_1_alg».proof.Proof.KernelBlocks

noncomputable section

open Idealize.ShloMosaic Idealize.ShloMosaic.TcCoe Idealize.SL.Sem Idealize.ShloMosaic.ValueIdx

namespace Cert.KernelIdeal.LossTotal

open Cert.KernelIdeal Cert.KernelIdeal.Gen Cert.KernelIdeal.LossValue Cert.KernelIdeal.LossBlocks Cert.LossSpec Cert.LibBlockSums

variable (m : (ℓ : Loc nD τ sig) → Buf (Elt Ideal) ℓ)

/-! ## The accumulating payloads at the one cell -/

theorem pay22_apply (v12 : Ideal .f32) (v170 : Vec Ideal S1x1 .f32) (j : S1x1.Idx) :
    k0_pay22 (F := Ideal) v12 v170 j = v170 j + v12 := by
  unfold k0_pay22; rw [shapeCast_self]; rfl

theorem pay1_apply (v169 : Ideal .f32) (v176 : Vec Ideal S1x1 .f32) (j : S1x1.Idx) :
    k0_pay1 (F := Ideal) v169 v176 j = v176 j + v169 := by
  unfold k0_pay1; rw [shapeCast_self]; rfl

theorem pay3_apply (j : S1x1.Idx) : k0_pay3 (F := Ideal) j = 0 := by
  unfold k0_pay3; rw [shapeCast_self]; exact Ideal.ofBits_zero_f32

theorem pay4_apply (j : S1x1.Idx) : k0_pay4 (F := Ideal) j = 0 := by
  unfold k0_pay4; rw [shapeCast_self]; exact Ideal.ofBits_zero_f32

theorem pay2_apply (a b : Vec Ideal S1x1 .f32) (j : S1x1.Idx) :
    k0_pay2 (F := Ideal) a b j = Ideal.div (a j * b j) (Ideal.ofBits .f32 0x49800000#32) := rfl

/-! ## The accumulators are sums over the points -/

/-- Point `t`'s squared-difference sum (zero past the grid). -/
def sqAt (c : Dev nD) (t : ℕ) : Ideal .f32 :=
  if h : t < cfg0.N then k0_pay7 (F := Ideal) (iblk m c 0 ⟨t, h⟩) (iblk m c 1 ⟨t, h⟩) else 0

/-- Point `t`'s weight sum (zero past the grid). -/
def wAt (c : Dev nD) (t : ℕ) : Ideal .f32 :=
  if h : t < cfg0.N then wBlock (F := Ideal) (iblk m c 0 ⟨t, h⟩) (iblk m c 1 ⟨t, h⟩) (iblk m c 2 ⟨t, h⟩) else 0

theorem sqChain_apply (c : Dev nD) (j : S1x1.Idx) : ∀ (n : ℕ) (h : n < cfg0.N),
    sqChain m c n h j = ∑ t ∈ Finset.range (n + 1), sqAt m c t
  | 0, h => by
    show k0_pay22 _ k0_pay3 j = _
    rw [pay22_apply, pay3_apply, zero_add, Finset.sum_range_one, sqAt, dif_pos h]
  | n + 1, h => by
    show k0_pay22 _ (sqChain m c n _) j = _
    rw [pay22_apply, sqChain_apply c j n, Finset.sum_range_succ _ (n + 1), sqAt, dif_pos h]

theorem wChain_apply (c : Dev nD) (j : S1x1.Idx) : ∀ (n : ℕ) (h : n < cfg0.N),
    wChain m c n h j = ∑ t ∈ Finset.range (n + 1), wAt m c t
  | 0, h => by
    show k0_pay1 _ k0_pay4 j = _
    rw [pay1_apply, pay4_apply, zero_add, Finset.sum_range_one, wAt, dif_pos h]
  | n + 1, h => by
    show k0_pay1 _ (wChain m c n _) j = _
    rw [pay1_apply, wChain_apply c j n, Finset.sum_range_succ _ (n + 1), wAt, dif_pos h]

/-- The result cell: the product of the two sums over the sixteen points, divided by the fixed word. -/
theorem result_apply (c : Dev nD) (j : S1x1.Idx) :
    result m c j = Ideal.div ((∑ t ∈ Finset.range 16, sqAt m c t) * (∑ t ∈ Finset.range 16, wAt m c t))
      (Ideal.ofBits .f32 0x49800000#32) := by
  unfold result
  rw [pay2_apply, sqChain_apply, wChain_apply]

/-! ## A point's blocks are rows of the arrays -/

/-- Row `r` of point `t`'s block is row `65536·t + r` of the array. -/
def row (t : ℕ) (ht : t < 16) (r : Fin 65536) : Fin 1048576 := ⟨t * 65536 + r.val, by have := r.isLt; omega⟩

theorem idx_facts0 : ∀ t : Fin cfg0.N, win0_0.index t 0 = t.val ∧ win0_0.index t 1 = 0 :=
  (by decide +kernel : ∀ t : Fin grid0.N, win0_0.index t 0 = t.val ∧ win0_0.index t 1 = 0)
theorem idx_facts1 : ∀ t : Fin cfg0.N, win0_1.index t 0 = t.val ∧ win0_1.index t 1 = 0 :=
  (by decide +kernel : ∀ t : Fin grid0.N, win0_1.index t 0 = t.val ∧ win0_1.index t 1 = 0)
theorem idx_facts2 : ∀ t : Fin cfg0.N, win0_2.index t 0 = 0 ∧ win0_2.index t 1 = 0 :=
  (by decide +kernel : ∀ t : Fin grid0.N, win0_2.index t 0 = 0 ∧ win0_2.index t 1 = 0)

theorem lt16 (t : Fin cfg0.N) : t.val < 16 := lt_of_lt_of_eq t.isLt (show cfg0.N = 16 from N_0)

theorem iblk0_apply (c : Dev nD) (t : Fin cfg0.N) (r : Fin 65536) (l : Fin 24) :
    (iblk m c 0 t : Vec Ideal S65536x24 .f32) (ix2 r l) = V m c main_v0 (ix2 (row t.val (lt16 t) r) l) := by
  unfold iblk
  rw [View.read_apply]
  show V m c main_v0 _ = V m c main_v0 _
  congr 1
  funext a
  apply Fin.ext
  match a with
  | ⟨0, _⟩ => show win0_0.index t 0 * 65536 + 1 * r.val = t.val * 65536 + r.val; rw [(idx_facts0 t).1]; omega
  | ⟨1, _⟩ => show win0_0.index t 1 * 24 + 1 * l.val = l.val; rw [(idx_facts0 t).2]; omega

theorem iblk1_apply (c : Dev nD) (t : Fin cfg0.N) (r : Fin 65536) (l : Fin 24) :
    (iblk m c 1 t : Vec Ideal S65536x24 .f32) (ix2 r l) = V m c main_v1 (ix2 (row t.val (lt16 t) r) l) := by
  unfold iblk
  rw [View.read_apply]
  show V m c main_v1 _ = V m c main_v1 _
  congr 1
  funext a
  apply Fin.ext
  match a with
  | ⟨0, _⟩ => show win0_1.index t 0 * 65536 + 1 * r.val = t.val * 65536 + r.val; rw [(idx_facts1 t).1]; omega
  | ⟨1, _⟩ => show win0_1.index t 1 * 24 + 1 * l.val = l.val; rw [(idx_facts1 t).2]; omega

theorem iblk2_apply (c : Dev nD) (t : Fin cfg0.N) (a b : Fin 4) :
    (iblk m c 2 t : Vec Ideal S4x4 .f32) (ix2 a b) = V m c main_v6 (ix2 a b) := by
  unfold iblk
  rw [View.read_apply]
  show V m c main_v6 _ = V m c main_v6 _
  congr 1
  funext d
  apply Fin.ext
  match d with
  | ⟨0, _⟩ => show win0_2.index t 0 * 4 + 1 * a.val = a.val; rw [(idx_facts2 t).1]; omega
  | ⟨1, _⟩ => show win0_2.index t 1 * 4 + 1 * b.val = b.val; rw [(idx_facts2 t).2]; omega

end Cert.KernelIdeal.LossTotal

end
-- ==== Proof.LibIndexSums.lean ====
/-
  Two re-indexings of a finite sum over the indices of a small shape.

  An index of a one-axis shape `[n]` is its one coordinate, and an index of a shape `[n, 1]` is its first
  coordinate (the second can only be `0`).  So a sum over all indices of either shape, in any commutative monoid,
  is the sum over `Fin n` of the summand at the index built from the coordinate.  These are the rank-one and the
  unit-column companions of the library's double-sum reading of a rank-two shape.
-/
import Idealize.ShloMosaic.Lib.ValueIdx

namespace Cert.LibIndexSums

open Idealize.ShloMosaic Idealize.ShloMosaic.ValueIdx

/-- A sum over the indices of a one-axis shape `[n]` is the sum over that axis's coordinates. -/
theorem sum_idx1 {M : Type*} [AddCommMonoid M] {n : Nat} (f : (⟨1, ![n]⟩ : Shape).Idx → M) :
    ∑ j, f j = ∑ b : Fin n, f (ix1 b) :=
  (Equiv.sum_comp (⟨ix1, fun j => j 0, fun _ => rfl, fun j => (eq_ix1 j).symm⟩ :
    Fin n ≃ (⟨1, ![n]⟩ : Shape).Idx) f).symm

/-- A sum over the indices of a column shape `[n, 1]` is the sum over the first axis's coordinates. -/
theorem sum_idx2_unit {M : Type*} [AddCommMonoid M] {n : Nat} (f : (⟨2, ![n, 1]⟩ : Shape).Idx → M) :
    ∑ j, f j = ∑ b : Fin n, f (ix2 b 0) := by
  rw [sum_idx2]
  exact Finset.sum_congr rfl fun b _ => Fin.sum_univ_one _

end Cert.LibIndexSums
-- ==== Proof.RefValue.lean ====
/-
  The reference's result on the extended reals, as sums over the argument arrays.

  The reference takes, for each of the 1048576 samples, the running maximum of the sample's 24 entries in each of the
  two arguments, turns each maximum into a class word, wraps a negative word around (none is), pairs the two words,
  and reads the normalised 4 × 4 table at the pair (clamped into the table: neither is out of it).  It adds the
  table entries over the samples, adds the squared differences of the two arguments over all their entries,
  multiplies the two sums and divides by the fixed word.
-/
import proofs.«158126_j32289564131834_1_alg».proof.Proof.RefRead
import proofs.«158126_j32289564131834_1_alg».proof.Proof.LossSpec
import proofs.«158126_j32289564131834_1_alg».proof.Proof.LibBlockSums
import proofs.«158126_j32289564131834_1_alg».proof.Proof.LibIndexSums
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.LossRef

open Cert.ReferenceIdeal Cert.ReferenceIdeal.Gen Cert.ReferenceIdeal.ReadP Cert.LossSpec Cert.LibBlockSums Cert.LibIndexSums

/-- Dropping the middle axis of [1048576, 24, 1] leaves [1048576, 1]. -/
theorem reduces_mid : S1048576x24x1.Reduces [1] S1048576x1 := by decide

/-- The host's maximum along the middle axis of a [1048576, 24, 1] array, at sample `b`: the running maximum, from
    minus infinity, of the sample's 24 entries. -/
theorem hostRowMax (x : FVec Ideal S1048576x24x1 .f32) (b : Fin 1048576) :
    Host.reduce FloatOps.maximumf x (constant (F := Ideal) S_ .f32 0xFF800000#32) reducesTo_S1048576x24x1_S1048576x1_d1 h_S_
        (ix2 b (0 : Fin 1))
      = rowMax fun k => x (ix3 b k (0 : Fin 1)) := by
  have e := Host.reduce_eq_fold_single FloatOps.maximumf x (constant (F := Ideal) S_ .f32 0xFF800000#32)
    reducesTo_S1048576x24x1_S1048576x1_d1 reduces_mid h_S_ (ix2 b (0 : Fin 1))
  refine e.trans ?_
  unfold rowMax
  refine congrArg (fun f => Finset.fold max (Ideal.ofBits .f32 0xFF800000#32) f (Finset.univ : Finset (Fin 24))) (funext fun k => ?_)
  show x (reduces_mid.lift (ix2 b (0 : Fin 1)) k) = x (ix3 b k (0 : Fin 1))
  refine congrArg x ?_
  funext d
  apply Fin.ext
  fin_cases d <;> rfl

theorem idx_v1 (b : Fin 1048576) : idx_main_v1 (ix1 b) = ix2 b (0 : Fin 1) := by
  funext a; apply Fin.ext
  match a with
  | ⟨0, _⟩ => exact Nat.div_one _
  | ⟨1, _⟩ => rfl

theorem idx_v14 (b : Fin 1048576) : idx_main_v14 (ix1 b) = ix2 b (0 : Fin 1) := by
  funext a; apply Fin.ext
  match a with
  | ⟨0, _⟩ => exact Nat.div_one _
  | ⟨1, _⟩ => rfl

/-- The class word of a sample, from the sample's maximum. -/
theorem classVecRef (v : FVec Ideal S1048576 .f32) (i : S1048576.Idx) :
    addi (addi (extui 32 (cmpf .oge v (broadcastInDim S1048576 ![] bcast_S_S1048576 (constant (F := Ideal) S_ .f32 0x00000000#32))) natLt_1_32)
        (extui 32 (cmpf .oge v (broadcastInDim S1048576 ![] bcast_S_S1048576 (constant (F := Ideal) S_ .f32 0x3F800000#32))) natLt_1_32))
      (extui 32 (cmpf .oge v (broadcastInDim S1048576 ![] bcast_S_S1048576 (constant (F := Ideal) S_ .f32 0x40000000#32))) natLt_1_32) i
      = cls (v i) := rfl

variable (P Q : (⟨S1048576x24x1, .f32⟩ : BufTy).Contents (Elt Ideal)) (S : (⟨S4x4, .f32⟩ : BufTy).Contents (Elt Ideal))

/-- The first argument's class word at sample `b`. -/
theorem class_arg0 (b : Fin 1048576) : val_main_v12 (F := Ideal) P (ix1 b) = cls (rowMax fun k => P (ix3 b k (0 : Fin 1))) := by
  have e : val_main_v1 (F := Ideal) P (ix1 b) = rowMax fun k => P (ix3 b k (0 : Fin 1)) := by
    rw [val_main_v1_apply, idx_v1]
    unfold val_main_v0 val_main_cst
    exact hostRowMax P b
  unfold val_main_v12 val_main_v8 val_main_v11 val_main_v4 val_main_v7 val_main_v10 val_main_v3 val_main_v6 val_main_v2 val_main_v5 val_main_v9 val_main_cst_0 val_main_cst_1 val_main_cst_2
  exact (classVecRef (val_main_v1 (F := Ideal) P) (ix1 b)).trans (congrArg cls e)

/-- The second argument's class word at sample `b`. -/
theorem class_arg1 (b : Fin 1048576) : val_main_v25 (F := Ideal) Q (ix1 b) = cls (rowMax fun k => Q (ix3 b k (0 : Fin 1))) := by
  have e : val_main_v14 (F := Ideal) Q (ix1 b) = rowMax fun k => Q (ix3 b k (0 : Fin 1)) := by
    rw [val_main_v14_apply, idx_v14]
    unfold val_main_v13 val_main_cst_3
    exact hostRowMax Q b
  unfold val_main_v25 val_main_v21 val_main_v24 val_main_v17 val_main_v20 val_main_v23 val_main_v16 val_main_v19 val_main_v15 val_main_v18 val_main_v22 val_main_cst_4 val_main_cst_5 val_main_cst_6
  exact (classVecRef (val_main_v14 (F := Ideal) Q) (ix1 b)).trans (congrArg cls e)

/-- The wrapped words are the class words: none is negative. -/
theorem wrapped_arg1 (b : Fin 1048576) : val_main_v35 (F := Ideal) Q (ix1 b) = cls (rowMax fun k => Q (ix3 b k (0 : Fin 1))) := by
  rw [val_main_v35_apply, val_main_v32_apply, val_main_v34_apply, val_main_v31_apply, val_main_v33_apply, val_main_c_apply, val_main_c_8_apply, class_arg1]
  exact wrap_eq _ (cls_cases _)

theorem wrapped_arg0 (b : Fin 1048576) : val_main_v40 (F := Ideal) P (ix1 b) = cls (rowMax fun k => P (ix3 b k (0 : Fin 1))) := by
  rw [val_main_v40_apply, val_main_v37_apply, val_main_v39_apply, val_main_v36_apply, val_main_v38_apply, val_main_c_9_apply, val_main_c_10_apply, class_arg0]
  exact wrap_eq _ (cls_cases _)

/-- The pair of words at sample `b`: the second argument's first, the first argument's second. -/
theorem pair_fst (b : Fin 1048576) : val_main_v43 (F := Ideal) P Q (ix2 b (0 : Fin 2)) = cls (rowMax fun k => Q (ix3 b k (0 : Fin 1))) := by
  unfold val_main_v43
  refine (concatenate_pair_apply_left (t := S1048576x2) (s₁ := S1048576x1) (s₂ := S1048576x1) (1 : Fin 2) (val_main_v41 (F := Ideal) Q) (val_main_v42 (F := Ideal) P) concatenates_S1048576x1_S1048576x1_S1048576x2_d1 (ix2 b (0 : Fin 2)) rfl (ix2 b (0 : Fin 1)) ?_).trans ?_
  · intro a; fin_cases a <;> rfl
  rw [val_main_v41_apply]
  have : idx_main_v41 (ix2 b (0 : Fin 1)) = ix1 b := by funext a; apply Fin.ext; fin_cases a; rfl
  rw [this]; exact wrapped_arg1 Q b

theorem pair_snd (b : Fin 1048576) : val_main_v43 (F := Ideal) P Q (ix2 b (1 : Fin 2)) = cls (rowMax fun k => P (ix3 b k (0 : Fin 1))) := by
  unfold val_main_v43
  refine (concatenate_pair_apply_right (t := S1048576x2) (s₁ := S1048576x1) (s₂ := S1048576x1) (1 : Fin 2) (val_main_v41 (F := Ideal) Q) (val_main_v42 (F := Ideal) P) concatenates_S1048576x1_S1048576x1_S1048576x2_d1 (ix2 b (1 : Fin 2)) rfl rfl (ix2 b (0 : Fin 1)) ?_ ?_).trans ?_
  · intro a ha; fin_cases a
    · rfl
    · exact absurd rfl ha
  · rfl
  rw [val_main_v42_apply]
  have : idx_main_v42 (ix2 b (0 : Fin 1)) = ix1 b := by funext a; apply Fin.ext; fin_cases a; rfl
  rw [this]; exact wrapped_arg0 P b

/-- The table read at a pair of start indices, each read signed and clamped into the table. -/
theorem gather_cell {α : Type} (x : S4x4.Idx → α) (idx : IVec S1048576x2 32) (b : Fin 1048576) :
    Host.gather gather_S4x4_S1048576x2_S1048576_n_01_n_n_01_1_11 x idx (ix1 b)
      = x (ix2 (⟨min (idx (ix2 b (0 : Fin 2))).toInt.toNat (4 - 1), by omega⟩ : Fin 4)
               (⟨min (idx (ix2 b (1 : Fin 2))).toInt.toNat (4 - 1), by omega⟩ : Fin 4)) := by
  have h0 : ∀ a : Fin 2, gather_S4x4_S1048576x2_S1048576_n_01_n_n_01_1_11.batchCoord (ix1 b) a = 0 := fun a =>
    GatherDims.batchCoord_eq_zero _ _ _ List.not_mem_nil
  have h1 : ∀ a : Fin 2, gather_S4x4_S1048576x2_S1048576_n_01_n_n_01_1_11.offCoord (ix1 b) a = 0 := fun a =>
    GatherDims.offCoord_eq_zero _ _ _ (fun h => ((GatherDims.mem_sKept _ _).mp h).1 (by fin_cases a <;> decide))
  have s0 : gather_S4x4_S1048576x2_S1048576_n_01_n_n_01_1_11.start (ix1 b) idx (0 : Fin 2) = min (idx (ix2 b (0 : Fin 2))).toInt.toNat (4 - 1) := by
    unfold GatherDims.start
    rw [dif_pos (show (0 : Fin 2) ∈ gather_S4x4_S1048576x2_S1048576_n_01_n_n_01_1_11.startIndexMap from by decide)]
    have hsi : gather_S4x4_S1048576x2_S1048576_n_01_n_n_01_1_11.siIdx (ix1 b) ⟨List.idxOf (0 : Fin 2) gather_S4x4_S1048576x2_S1048576_n_01_n_n_01_1_11.startIndexMap, List.idxOf_lt_length_iff.2 (by decide)⟩ = ix2 b (0 : Fin 2) := by
      funext d; refine Fin.ext ?_
      match d with
      | ⟨0, _⟩ => rfl
      | ⟨1, _⟩ => rfl
    rw [hsi]; rfl
  have s1 : gather_S4x4_S1048576x2_S1048576_n_01_n_n_01_1_11.start (ix1 b) idx (1 : Fin 2) = min (idx (ix2 b (1 : Fin 2))).toInt.toNat (4 - 1) := by
    unfold GatherDims.start
    rw [dif_pos (show (1 : Fin 2) ∈ gather_S4x4_S1048576x2_S1048576_n_01_n_n_01_1_11.startIndexMap from by decide)]
    have hsi : gather_S4x4_S1048576x2_S1048576_n_01_n_n_01_1_11.siIdx (ix1 b) ⟨List.idxOf (1 : Fin 2) gather_S4x4_S1048576x2_S1048576_n_01_n_n_01_1_11.startIndexMap, List.idxOf_lt_length_iff.2 (by decide)⟩ = ix2 b (1 : Fin 2) := by
      funext d; refine Fin.ext ?_
      match d with
      | ⟨0, _⟩ => rfl
      | ⟨1, _⟩ => rfl
    rw [hsi]; rfl
  unfold Host.gather
  congr 1
  funext a
  refine Fin.ext ?_
  show gather_S4x4_S1048576x2_S1048576_n_01_n_n_01_1_11.start (ix1 b) idx a + gather_S4x4_S1048576x2_S1048576_n_01_n_n_01_1_11.batchCoord (ix1 b) a + gather_S4x4_S1048576x2_S1048576_n_01_n_n_01_1_11.offCoord (ix1 b) a = _
  rw [h0, h1]
  simp only [Nat.add_zero]
  match a with
  | ⟨0, _⟩ => exact s0
  | ⟨1, _⟩ => exact s1

/-- The weight the reference reads for sample `b`: the table at the two classes' position. -/
theorem weight_apply (b : Fin 1048576) :
    val_main_v44 (F := Ideal) P Q S (ix1 b)
      = val_main_v30 (F := Ideal) S (ix2 (sel (cls (rowMax fun k => Q (ix3 b k (0 : Fin 1))))) (sel (cls (rowMax fun k => P (ix3 b k (0 : Fin 1)))))) := by
  unfold val_main_v44
  rw [gather_cell]
  refine congrArg (val_main_v30 (F := Ideal) S) ?_
  funext a
  apply Fin.ext
  match a with
  | ⟨0, _⟩ => show min (val_main_v43 (F := Ideal) P Q (ix2 b (0 : Fin 2))).toInt.toNat (4 - 1) = _; rw [pair_fst, clamp_eq _ (cls_cases _)]
  | ⟨1, _⟩ => show min (val_main_v43 (F := Ideal) P Q (ix2 b (1 : Fin 2))).toInt.toNat (4 - 1) = _; rw [pair_snd, clamp_eq _ (cls_cases _)]

/-- THE REFERENCE'S RESULT: the product of the sum of all squared differences and the sum of the samples' weights,
    divided by the fixed word. -/
theorem result_apply (i : S_.Idx) :
    val_main_v50 (F := Ideal) P Q S i
      = Ideal.div ((∑ b : Fin 1048576, rowSq (fun l => P (ix3 b l (0 : Fin 1))) (fun l => Q (ix3 b l (0 : Fin 1))))
          * (∑ b : Fin 1048576, val_main_v30 (F := Ideal) S (ix2 (sel (cls (rowMax fun k => Q (ix3 b k (0 : Fin 1))))) (sel (cls (rowMax fun k => P (ix3 b k (0 : Fin 1))))))))
        (Ideal.ofBits .f32 0x49800000#32) := by
  have e1 : (∑ j : S1048576x24x1.Idx, val_main_v46 (F := Ideal) P Q j)
      = ∑ b : Fin 1048576, rowSq (fun l => P (ix3 b l (0 : Fin 1))) (fun l => Q (ix3 b l (0 : Fin 1))) := by
    rw [sum_idx3_unit_last]
    exact Finset.sum_congr rfl fun b _ => Finset.sum_congr rfl fun l _ => rfl
  have e2 : (∑ j : S1048576.Idx, val_main_v44 (F := Ideal) P Q S j)
      = ∑ b : Fin 1048576, val_main_v30 (F := Ideal) S (ix2 (sel (cls (rowMax fun k => Q (ix3 b k (0 : Fin 1))))) (sel (cls (rowMax fun k => P (ix3 b k (0 : Fin 1)))))) := by
    rw [sum_idx1]
    exact Finset.sum_congr rfl fun b _ => weight_apply P Q S b
  rw [val_main_v50_apply, val_main_v49_apply, val_main_v47_apply, val_main_v48_apply, e1, e2,
    val_main_cst_11_apply, val_main_cst_12_apply, val_main_cst_13_apply]
  simp only [Ideal.ofBits_def, Ideal.ofBits_zero_f32, zero_add, Ideal.hostDivf_def, Ideal.mulf_def]

end Cert.ReferenceIdeal.LossRef

end
-- ==== Proof.Bridge.lean ====
/-
  The two programs compute one number.

  The kernel's result is the quotient, by the fixed word, of the product of two sums over the sixteen grid points; the
  reference's is the same quotient of the product of two sums over the 1048576 samples.  A sample `b` is row `r` of
  exactly one point `t`, `b = 65536·t + r`, so each sum over the samples is the sum over the points of the sums over the
  points' rows: this is the only law used, a re-indexing of a finite sum in a commutative monoid, and it holds for every
  extended real — the finiteness of the inputs is never needed.  Row by row the summands agree: the squared
  differences are the same entries of the same two arrays; the weight is the same entry of the same normalised table,
  which one program reads by position and the other by its sixteen-term sum.
-/
import proofs.«158126_j32289564131834_1_alg».proof.Proof.KernelTotal
import proofs.«158126_j32289564131834_1_alg».proof.Proof.RefValue

noncomputable section

open Idealize.ShloMosaic Idealize.ShloMosaic.TcCoe Idealize.SL.Sem Idealize.ShloMosaic.ValueIdx

namespace Cert.LossBridge

open Cert.KernelIdeal Cert.KernelIdeal.Gen Cert.KernelIdeal.LossValue Cert.KernelIdeal.LossBlocks Cert.KernelIdeal.LossTotal
open Cert.LossSpec Cert.LibBlockSums

variable (m : (ℓ : Loc nD τ sig) → Buf (Elt Ideal) ℓ)

/-! ## The arrays the region finds -/

theorem V_v0 (c : Dev nD) :
    V m c main_v0 = shapeCast S1048576x24 (m ((c.tc : Thread nD τ).loc main_arg0)) shapeCasts_S1048576x24x1_S1048576x24 := by
  show StableHlo.after hostOps0 (fun b => m (c, b)) (Proc.devRef .tc main_v0) = _
  after_results
  rfl

theorem V_v1 (c : Dev nD) :
    V m c main_v1 = shapeCast S1048576x24 (m ((c.tc : Thread nD τ).loc main_arg1)) shapeCasts_S1048576x24x1_S1048576x24 := by
  show StableHlo.after hostOps0 (fun b => m (c, b)) (Proc.devRef .tc main_v1) = _
  after_results
  rfl

/-- The normalised table, as both programs compute it from the third argument. -/
def table (S : FVec Ideal S4x4 .f32) : FVec Ideal S4x4 .f32 :=
  Host.divf (Host.exp (Host.negf S)) (broadcastInDim S4x4 ![] bcast_S_S4x4
    (Host.reduceAdd (Host.exp (Host.negf S)) (constant (F := Ideal) S_ .f32 0x00000000#32) reducesTo_S4x4_S_d0_1 h_S_))

theorem V_v6 (c : Dev nD) : V m c main_v6 = table (m ((c.tc : Thread nD τ).loc main_arg2)) := by
  show StableHlo.after hostOps0 (fun b => m (c, b)) (Proc.devRef .tc main_v6) = _
  after_results
  rfl

theorem table_ref (S : FVec Ideal S4x4 .f32) : Cert.ReferenceIdeal.ReadP.val_main_v30 (F := Ideal) S = table S := rfl

/-- Dropping the unit axis keeps the entry. -/
theorem dropUnit_apply (x : FVec Ideal S1048576x24x1 .f32) (b : Fin 1048576) (l : Fin 24) :
    shapeCast S1048576x24 x shapeCasts_S1048576x24x1_S1048576x24 (ix2 b l) = x (ix3 b l (0 : Fin 1)) := by
  refine shapeCast_apply x shapeCasts_S1048576x24x1_S1048576x24 (ix2 b l) (ix3 b l (0 : Fin 1)) ?_
  rw [Shape.rowMajor_val_three, Shape.rowMajor_val_two]
  show (b.val * 24 + l.val) * 1 + 0 = b.val * 24 + l.val
  omega

theorem V_v0_apply (c : Dev nD) (b : Fin 1048576) (l : Fin 24) :
    V m c main_v0 (ix2 b l) = (m ((c.tc : Thread nD τ).loc main_arg0)) (ix3 b l (0 : Fin 1)) := by
  rw [V_v0]; exact dropUnit_apply _ b l

theorem V_v1_apply (c : Dev nD) (b : Fin 1048576) (l : Fin 24) :
    V m c main_v1 (ix2 b l) = (m ((c.tc : Thread nD τ).loc main_arg1)) (ix3 b l (0 : Fin 1)) := by
  rw [V_v1]; exact dropUnit_apply _ b l

/-! ## A sum over the samples is a sum over the points of sums over their rows -/

theorem sum_rows {M : Type*} [AddCommMonoid M] (g : Fin 1048576 → M) :
    ∑ b, g b = ∑ t ∈ Finset.range 16, (if h : t < 16 then ∑ r : Fin 65536, g (row t h r) else 0) := by
  rw [Finset.sum_range]
  refine (sum_blocks 16 65536 g).trans (Finset.sum_congr rfl fun t _ => ?_)
  rw [dif_pos t.isLt]
  exact Finset.sum_congr rfl fun r _ => congrArg g (Fin.ext rfl)

/-- The kernel's first sum is the sum of all squared differences. -/
theorem sq_total (c : Dev nD) :
    ∑ t ∈ Finset.range 16, sqAt m c t
      = ∑ b : Fin 1048576, rowSq (fun l => (m ((c.tc : Thread nD τ).loc main_arg0)) (ix3 b l (0 : Fin 1))) (fun l => (m ((c.tc : Thread nD τ).loc main_arg1)) (ix3 b l (0 : Fin 1))) := by
  rw [sum_rows]
  refine Finset.sum_congr rfl fun t ht => ?_
  have h16 : t < 16 := Finset.mem_range.mp ht
  have hN : t < cfg0.N := lt_of_lt_of_eq h16 (show cfg0.N = 16 from N_0).symm
  rw [sqAt, dif_pos hN, dif_pos h16]
  refine (sqBlock_eq (iblk m c 0 ⟨t, hN⟩) (iblk m c 1 ⟨t, hN⟩)).trans (Finset.sum_congr rfl fun r _ => ?_)
  unfold rowSq
  refine Finset.sum_congr rfl fun l _ => ?_
  have e0 := (iblk0_apply m c ⟨t, hN⟩ r l).trans (V_v0_apply m c (row t h16 r) l)
  have e1 := (iblk1_apply m c ⟨t, hN⟩ r l).trans (V_v1_apply m c (row t h16 r) l)
  dsimp only
  rw [e0, e1]

/-- The kernel's second sum is the sum over the samples of the table entry at the samples' two classes. -/
theorem w_total (c : Dev nD) :
    ∑ t ∈ Finset.range 16, wAt m c t
      = ∑ b : Fin 1048576, table (m ((c.tc : Thread nD τ).loc main_arg2)) (ix2 (sel (cls (rowMax fun k => (m ((c.tc : Thread nD τ).loc main_arg1)) (ix3 b k (0 : Fin 1)))))
          (sel (cls (rowMax fun k => (m ((c.tc : Thread nD τ).loc main_arg0)) (ix3 b k (0 : Fin 1)))))) := by
  rw [sum_rows]
  refine Finset.sum_congr rfl fun t ht => ?_
  have h16 : t < 16 := Finset.mem_range.mp ht
  have hN : t < cfg0.N := lt_of_lt_of_eq h16 (show cfg0.N = 16 from N_0).symm
  rw [wAt, dif_pos hN, dif_pos h16]
  refine (wBlock_eq (iblk m c 0 ⟨t, hN⟩) (iblk m c 1 ⟨t, hN⟩) (iblk m c 2 ⟨t, hN⟩)).trans (Finset.sum_congr rfl fun r _ => ?_)
  have hq : (fun k => (iblk m c 1 ⟨t, hN⟩ : Vec Ideal S65536x24 .f32) (ix2 r k)) = fun k => (m ((c.tc : Thread nD τ).loc main_arg1)) (ix3 (row t h16 r) k (0 : Fin 1)) :=
    funext fun k => (iblk1_apply m c ⟨t, hN⟩ r k).trans (V_v1_apply m c (row t h16 r) k)
  have hp : (fun k => (iblk m c 0 ⟨t, hN⟩ : Vec Ideal S65536x24 .f32) (ix2 r k)) = fun k => (m ((c.tc : Thread nD τ).loc main_arg0)) (ix3 (row t h16 r) k (0 : Fin 1)) :=
    funext fun k => (iblk0_apply m c ⟨t, hN⟩ r k).trans (V_v0_apply m c (row t h16 r) k)
  rw [hq, hp, iblk2_apply, V_v6]

/-- THE BRIDGE: the kernel's scalar result is the reference's. -/
theorem result_eq (c : Dev nD) :
    shapeCast S_ (result m c) shapeCasts_S1x1_S_
      = Cert.ReferenceIdeal.ReadP.val_main_v50 (F := Ideal) (m ((c.tc : Thread nD τ).loc main_arg0)) (m ((c.tc : Thread nD τ).loc main_arg1)) (m ((c.tc : Thread nD τ).loc main_arg2)) := by
  funext i
  rw [Cert.ReferenceIdeal.LossRef.result_apply]
  refine (shapeCast_apply _ shapeCasts_S1x1_S_ i (ix2 (0 : Fin 1) (0 : Fin 1)) ?_).trans ?_
  · rw [Shape.rowMajor_val_two]
    exact (Fin.val_eq_zero _).symm
  rw [LossTotal.result_apply, sq_total, w_total]
  simp only [table_ref]

end Cert.LossBridge

end
-- ==== Proof.lean ====
/-
  The weighted loss kernel against its reference, on the extended reals.

  Both programs take two arrays of 1048576 samples × 24 entries (× a unit axis) and a 4 × 4 table of scores.  Each
  normalises the table in the same way (exponentials of the negated scores, divided by their sum), takes per sample the
  maximum of the sample's 24 entries in each array, classes each maximum by the thresholds 0, 1, 2, and weighs the
  sample by the table entry at the two classes.  The result is the sum of the squared differences of the two arrays
  over all entries, times the sum of the samples' weights, divided by 2^20.

  The reference does this in whole-array operations.  The kernel walks sixteen blocks of 65536 samples, keeps the two
  sums in one-cell accumulators across the blocks, reads a sample's weight as a sixteen-term sum of table entries
  times indicators of the two classes, and forms the quotient at the last block.  Over the extended reals the two
  results are one number: a sum over the samples is the sum over the blocks of the sums over each block's samples, and
  of the sixteen products all but the one at the two classes vanish.  The three frame claims are the generated frame
  certificates (the reference's frame is its run with the result dropped); the idealisation rewrote nothing.
-/
import proofs.«158126_j32289564131834_1_alg».proof.Defs
import proofs.«158126_j32289564131834_1_alg».proof.Proof.Gen.Kernel
import proofs.«158126_j32289564131834_1_alg».proof.Proof.Gen.Kernel.Skeleton
import proofs.«158126_j32289564131834_1_alg».proof.Proof.Gen.Kernel.Launch
import proofs.«158126_j32289564131834_1_alg».proof.Proof.Gen.Kernel.Points
import proofs.«158126_j32289564131834_1_alg».proof.Proof.Gen.Kernel.Frame
import proofs.«158126_j32289564131834_1_alg».proof.Proof.Gen.KernelIdeal
import proofs.«158126_j32289564131834_1_alg».proof.Proof.Gen.KernelIdeal.Skeleton
import proofs.«158126_j32289564131834_1_alg».proof.Proof.Gen.KernelIdeal.Launch
import proofs.«158126_j32289564131834_1_alg».proof.Proof.Gen.KernelIdeal.Points
import proofs.«158126_j32289564131834_1_alg».proof.Proof.Gen.KernelIdeal.Frame
import proofs.«158126_j32289564131834_1_alg».proof.Proof.Gen.ReferenceIdeal
import proofs.«158126_j32289564131834_1_alg».proof.Proof.Gen.Pre_finite_inputs
import proofs.«158126_j32289564131834_1_alg».proof.Proof.RefRun
import proofs.«158126_j32289564131834_1_alg».proof.Proof.RefRead
import proofs.«158126_j32289564131834_1_alg».proof.Proof.KernelValue
import proofs.«158126_j32289564131834_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, read back, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the three arguments both programs end, the kernel's scalar at the quotient its last
    block stores and the reference's at its composed term: one extended real. -/
theorem algebraic : Cert.algebraic_KernelIdeal_ReferenceIdeal := by
  intro m ρ m' ρ' _ hagree
  refine ⟨fun c => shapeCast Cert.KernelIdeal.S_ (Cert.KernelIdeal.LossValue.result m c) Cert.KernelIdeal.Facts₀.shapeCasts_S1x1_S_,
    Cert.KernelIdeal.LossValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, (hagree c).1, (hagree c).2.1, (hagree c).2.2]
  exact (Cert.LossBridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
